-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x64 .f32) (main_arg7 : FVec F S64 .f32) (main_arg8 : FVec F S128x64 .f32) (main_arg9 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩

abbrev nBuf : Space → Nat
  | .hbm => 123
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .f32⟩
  | .hbm, ⟨86, _⟩ => ⟨S1700000x1, .f32⟩
  | .hbm, ⟨87, _⟩ => ⟨S1700000x128, .f32⟩
  | .hbm, ⟨88, _⟩ => ⟨S1700000x128, .f32⟩
  | .hbm, ⟨89, _⟩ => ⟨S_, .f32⟩
  | .hbm, ⟨90, _⟩ => ⟨S100000x128, .f32⟩
  | .hbm, ⟨91, _⟩ => ⟨S1700000x1, .i32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S128x128, .f32⟩
  | .hbm, ⟨100, _⟩ => ⟨S128, .f32⟩
  | .hbm, ⟨101, _⟩ => ⟨S100000x128, .f32⟩
  | .hbm, ⟨102, _⟩ => ⟨S_, .i32⟩
  | .hbm, ⟨103, _⟩ => ⟨S1700000, .i32⟩
  | .hbm, ⟨104, _⟩ => ⟨S1700000, .i1⟩
  | .hbm, ⟨105, _⟩ => ⟨S_, .i32⟩
  | .hbm, ⟨106, _⟩ => ⟨S1700000, .i32⟩
  | .hbm, ⟨107, _⟩ => ⟨S1700000, .i32⟩
  | .hbm, ⟨108, _⟩ => ⟨S1700000, .i32⟩
  | .hbm, ⟨109, _⟩ => ⟨S1700000x1, .i32⟩
  | .hbm, ⟨110, _⟩ => ⟨S1700000x128, .f32⟩
  | .hbm, ⟨111, _⟩ => ⟨S1700000x1, .f32⟩
  | .hbm, ⟨112, _⟩ => ⟨S1700000x128, .f32⟩
  | .hbm, ⟨113, _⟩ => ⟨S1700000x128, .f32⟩
  | .hbm, ⟨114, _⟩ => ⟨S_, .f32⟩
  | .hbm, ⟨115, _⟩ => ⟨S100000x128, .f32⟩
  | .hbm, ⟨116, _⟩ => ⟨S1700000x1, .i32⟩
  | .hbm, ⟨117, _⟩ => ⟨S100000x128, .f32⟩
  | .hbm, ⟨118, _⟩ => ⟨S1x128, .f32⟩
  | .hbm, ⟨119, _⟩ => ⟨S100000x128, .f32⟩
  | .hbm, ⟨120, _⟩ => ⟨S100000x128, .f32⟩
  | .hbm, ⟨121, _⟩ => ⟨S100000x64, .f32⟩
  | .hbm, ⟨122, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_13 : Ref sig .tc := ⟨.hbm, 102, rfl⟩
abbrev main_v71 : Ref sig .tc := ⟨.hbm, 103, rfl⟩
abbrev main_v72 : Ref sig .tc := ⟨.hbm, 104, rfl⟩
abbrev main_c_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_15 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  concatenates_S128x64_S128x64_S128x128_d1 : Shape.Concatenates [S128x64, S128x64] S128x128 1
  concatenates_S64_S64_S128_d0 : Shape.Concatenates [S64, S64] S128 0
  shapeCasts_S128x128_S128x128 : S128x128.ShapeCasts S128x128
  slices_S100000x128_S100000x64_0_0 : S100000x128.Slices ![0, 0] S100000x64
  slices_S100000x128_S100000x64_0_64 : S100000x128.Slices ![0, 64] S100000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 139
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128x64, .f32⟩
  | 9 => ⟨S64, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x128, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x128, .f32⟩
  | 86 => ⟨S1700000x1, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x64, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x64, .f32⟩
  | 109 => ⟨S1700000x1, .f32⟩
  | 110 => ⟨S1700000x64, .f32⟩
  | 111 => ⟨S1700000x64, .f32⟩
  | 112 => ⟨S_, .f32⟩
  | 113 => ⟨S100000x64, .f32⟩
  | 114 => ⟨S1700000x1, .i32⟩
  | 115 => ⟨S100000x64, .f32⟩
  | 116 => ⟨S1x64, .f32⟩
  | 117 => ⟨S100000x64, .f32⟩
  | 118 => ⟨S100000x64, .f32⟩
  | 119 => ⟨S100000x64, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x256, .f32⟩

abbrev hbmTy0_1 (i : Nat) : BufTy := match i % 128 with
  | 0 => ⟨S1700000x64, .f32⟩
  | 1 => ⟨S1700000x1, .f32⟩
  | 2 => ⟨S1700000x64, .f32⟩
  | 3 => ⟨S1700000x64, .f32⟩
  | 4 => ⟨S_, .f32⟩
  | 5 => ⟨S100000x64, .f32⟩
  | 6 => ⟨S1700000x1, .i32⟩
  | 7 => ⟨S100000x64, .f32⟩
  | 8 => ⟨S1x64, .f32⟩
  | 9 => ⟨S100000x64, .f32⟩
  | 10 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_c_17 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_18 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The kernel program's run with its two results named.

  @main is twelve segments: nine stretches of host operations and three matrix-product regions.  Every weakly fair
  execution from a memory with zero counters terminates, nothing faulting, and in the final state every unscoped buffer
  of core `c` holds what the last segment boundary's contents say (`Gen.W12 m ρ c`: the fold of the host stretches and
  of the regions' write-backs from the launch memory).  Read at the two result buffers this names the results; read at
  the argument buffers it says they end as launched.
-/
import proofs.«100902_j1211180778233_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents of their buffers and the ten arguments as launched. -/
theorem run_results : θ_run defs (onTc (τ := τ) (main (F := F))) ⟨m, fun _ => 0, ρ⟩ (fun r => ∀ c : Dev nD,
      r.2.mem ((c.tc : Thread nD τ).loc main_v87) = W12 m ρ c (Proc.devRef .tc main_v87)
      ∧ r.2.mem ((c.tc : Thread nD τ).loc main_v88) = W12 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v87 (by decide)),
       h c _ (mem_uc main_v88 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.RunValue

end
-- ==== Proof.LibRowDims.lean ====
/-
  The dimension numbers of the two row-indexed operations of a graph layer, for any extents.

  Gathering whole rows: from an operand of `N` rows and `W` columns, row `idx e` for each of `E` start indices (one
  integer per start index, laid out as a column), into `E` rows of `W` columns.  Adding rows up: each of `E` update
  rows of `W` columns is added into the operand row its scatter index names.  A start index is read signed; the gather
  clamps it into `[0, N - 1]`.
-/
import Idealize.ShloMosaic.PureOps.Ideal
import Idealize.ShloMosaic.Lib.ValueIdx

noncomputable section

namespace Idealize.ShloMosaic.RowIndexing

open Idealize.ShloMosaic Idealize.ShloMosaic.ValueIdx

/-- A gather of whole rows: operand `[N, W]`, start indices `[E, 1]`, result `[E, W]`. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- A scatter of whole rows: operand `[N, W]`, scatter indices `[E, 1]`, updates `[E, W]`. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

/-- The operand row start index `e` names: the index read signed and clamped into `[0, N - 1]`. -/
def clampRow {N E w : Nat} (hN : 0 < N) (idx : IVec ⟨2, ![E, 1]⟩ w) (e : Fin E) : Fin N :=
  ⟨min (idx (ix2 e 0)).toInt.toNat (N - 1), by omega⟩

end Idealize.ShloMosaic.RowIndexing

end
-- ==== Proof.GcnSpec.lean ====
/-
  The vocabulary of a stacked graph-convolution encoder, as functions of whole arrays.

  Both programs compute, from the edge array `e : i32[2, 1600000]` over `100000` nodes:
  • the source and target index vectors with a self loop appended per node (`srcOf`, `dstOf`: row 0, resp. row 1, of
    `e` followed by `0, 1, …, 99999`), `1700000` entries each;
  • the symmetric normalisation `nrmOf e = dis[src] · dis[dst]`, where `dis = deg > 0 ? rsqrt (max deg 1) : 0` and
    `deg` counts, per node, the entries of `dst` that name it;
  • one layer's aggregation `convLayer src dst nrm h b`: row `r` of the result is the sum, over the entries `i` with
    `dst i = r`, of row `src i` of `h` scaled by `nrm i`, plus the bias row `b` — for any number `W` of columns;
  • `relu`.
  The shape facts the operations cite are propositions about literal shapes; they are bundled (`IndexFacts`,
  `LayerFacts W`), so that two programs citing their own proofs of the same facts spell the same function.
-/
import proofs.«100902_j1211180778233_1_alg».proof.Proof.LibRowDims

noncomputable section

namespace Cert.Gcn

open Idealize.ShloMosaic Idealize.ShloMosaic.RowIndexing

abbrev S_ : Shape := ⟨0, ![]⟩
abbrev S100000 : Shape := ⟨1, ![100000]⟩
abbrev S1600000 : Shape := ⟨1, ![1600000]⟩
abbrev S1700000 : Shape := ⟨1, ![1700000]⟩
abbrev S1x1600000 : Shape := ⟨2, ![1, 1600000]⟩
abbrev S2x1600000 : Shape := ⟨2, ![2, 1600000]⟩
abbrev S1700000x1 : Shape := ⟨2, ![1700000, 1]⟩

/-- The shape facts of the index vectors and of the normalisation. -/
structure IndexFacts : Prop where
  sl0 : S2x1600000.Slices ![0, 0] S1x1600000
  sl1 : S2x1600000.Slices ![1, 0] S1x1600000
  sc : S1x1600000.ShapeCasts S1600000
  cc : Shape.Concatenates [S1600000, S100000] S1700000 0
  bE : S_.BroadcastsInDim S1700000 (![] : Fin 0 → Fin S1700000.rank)
  bN : S_.BroadcastsInDim S100000 (![] : Fin 0 → Fin S100000.rank)
  bc : S1700000.BroadcastsInDim S1700000x1 (![0] : Fin 1 → Fin S1700000x1.rank)
  wfs1 : ScatterDims.WF S100000 S1700000x1 S1700000 [] [0] [0] 1
  wfg1 : GatherDims.WF S100000 S1700000x1 S1700000 [] [0] [] [0] [] 1 ![1]

/-- The shape facts of one layer's aggregation on `W` columns. -/
structure LayerFacts (W : Nat) : Prop where
  bcw : S1700000x1.BroadcastsInDim ⟨2, ![1700000, W]⟩ (![0, 1] : Fin 2 → Fin 2)
  bz : S_.BroadcastsInDim ⟨2, ![100000, W]⟩ (![] : Fin 0 → Fin 2)
  bb1 : (⟨1, ![W]⟩ : Shape).BroadcastsInDim ⟨2, ![1, W]⟩ (![1] : Fin 1 → Fin 2)
  bb2 : (⟨2, ![1, W]⟩ : Shape).BroadcastsInDim ⟨2, ![100000, W]⟩ (![0, 1] : Fin 2 → Fin 2)
  wfg : GatherDims.WF ⟨2, ![100000, W]⟩ ⟨2, ![1700000, 1]⟩ ⟨2, ![1700000, W]⟩ [1] [0] [] [0] [] 1 ![1, W]
  wfs : ScatterDims.WF ⟨2, ![100000, W]⟩ ⟨2, ![1700000, 1]⟩ ⟨2, ![1700000, W]⟩ [1] [0] [0] 1

/-- Adding single entries up: operand `[100000]`, scatter indices `[1700000, 1]`, updates `[1700000]`. -/
abbrev vecScatter (wf : ScatterDims.WF S100000 S1700000x1 S1700000 [] [0] [0] 1) : ScatterDims S100000 S1700000x1 S1700000 where
  updateWindowDims := []
  insertedWindowDims := [0]
  scatterDimsToOperandDims := [0]
  indexVectorDim := 1
  wf := wf

/-- Gathering single entries: operand `[100000]`, start indices `[1700000, 1]`, result `[1700000]`. -/
abbrev vecGather (wf : GatherDims.WF S100000 S1700000x1 S1700000 [] [0] [] [0] [] 1 ![1]) : GatherDims S100000 S1700000x1 S1700000 where
  offsetDims := []
  collapsedSliceDims := [0]
  operandBatchingDims := []
  startIndicesBatchingDims := []
  startIndexMap := [0]
  indexVectorDim := 1
  sliceSizes := ![1]
  wf := wf

variable {F : FTy → Type} [FloatOps F]

/-- Row 0 of the edge array, then the nodes' own numbers: every edge's source, every self loop's node. -/
def srcOf (hf : IndexFacts) (e : IVec S2x1600000 32) : IVec S1700000 32 :=
  concatenate S1700000 0 [⟨S1600000, (shapeCast _ (extractStridedSlice S1x1600000 ![0, 0] e hf.sl0) hf.sc)⟩, ⟨S100000, (iotaInDim S100000 32 0)⟩] hf.cc

/-- Row 1 of the edge array, then the nodes' own numbers: every edge's target, every self loop's node. -/
def dstOf (hf : IndexFacts) (e : IVec S2x1600000 32) : IVec S1700000 32 :=
  concatenate S1700000 0 [⟨S1600000, (shapeCast _ (extractStridedSlice S1x1600000 ![1, 0] e hf.sl1) hf.sc)⟩, ⟨S100000, (iotaInDim S100000 32 0)⟩] hf.cc

/-- An index counted from the end when negative: `i < 0 ? i + 100000 : i`. -/
def wrap (hf : IndexFacts) (i : IVec S1700000 32) : IVec S1700000 32 :=
  select (cmpi .slt i (broadcastInDim S1700000 ![] hf.bE (constantI S_ 32 0#32))) (addi i (broadcastInDim S1700000 ![] hf.bE (constantI S_ 32 100000#32))) i

/-- Each node's degree: the number of target entries that name it, as a float. -/
def degOf (hf : IndexFacts) (e : IVec S2x1600000 32) : FVec F S100000 .f32 :=
  Host.scatterAdd (vecScatter hf.wfs1) (broadcastInDim S100000 ![] hf.bN (constant S_ .f32 0x00000000#32)) (broadcastInDim S1700000x1 ![0] hf.bc (dstOf hf e)) (broadcastInDim S1700000 ![] hf.bE (constant S_ .f32 0x3F800000#32))

/-- `deg > 0 ? rsqrt (max deg 1) : 0`. -/
def disOf (hf : IndexFacts) (e : IVec S2x1600000 32) : FVec F S100000 .f32 :=
  select (cmpf (F := F) .ogt (degOf hf e) (broadcastInDim S100000 ![] hf.bN (constant S_ .f32 0x00000000#32))) (Host.rsqrt (maximumf (degOf hf e) (broadcastInDim S100000 ![] hf.bN (constant S_ .f32 0x3F800000#32)))) (broadcastInDim S100000 ![] hf.bN (id (constant S_ .f32 0x00000000#32)))

/-- The normalisation of every entry: `dis[src] · dis[dst]`. -/
def nrmOf (hf : IndexFacts) (e : IVec S2x1600000 32) : FVec F S1700000 .f32 :=
  mulf (Host.gather (vecGather hf.wfg1) (disOf (F := F) hf e) (broadcastInDim S1700000x1 ![0] hf.bc (wrap hf (srcOf hf e)))) (Host.gather (vecGather hf.wfg1) (disOf (F := F) hf e) (broadcastInDim S1700000x1 ![0] hf.bc (wrap hf (dstOf hf e))))

/-- One layer's aggregation on `W` columns: gather the rows `src` names, scale row `i` by `nrm i`, add the rows up by
    `dst`, add the bias row. -/
def convLayer {W : Nat} (hf : IndexFacts) (hl : LayerFacts W) (src dst : IVec S1700000 32) (nrm : FVec F S1700000 .f32)
    (h : FVec F ⟨2, ![100000, W]⟩ .f32) (b : FVec F ⟨1, ![W]⟩ .f32) : FVec F ⟨2, ![100000, W]⟩ .f32 :=
  addf (Host.scatterAdd (rowScatterDims 100000 1700000 W hl.wfs) (broadcastInDim ⟨2, ![100000, W]⟩ ![] hl.bz (constant S_ .f32 0x00000000#32)) (broadcastInDim S1700000x1 ![0] hf.bc dst) (mulf (Host.gather (rowGatherDims 100000 1700000 W hl.wfg) h (broadcastInDim S1700000x1 ![0] hf.bc (wrap hf src))) (broadcastInDim ⟨2, ![1700000, W]⟩ ![0, 1] hl.bcw (broadcastInDim S1700000x1 ![0] hf.bc nrm)))) (broadcastInDim ⟨2, ![100000, W]⟩ ![0, 1] hl.bb2 (broadcastInDim ⟨2, ![1, W]⟩ ![1] hl.bb1 b))

/-- `max x 0`, entry by entry. -/
def relu {W : Nat} (hl : LayerFacts W) (x : FVec F ⟨2, ![100000, W]⟩ .f32) : FVec F ⟨2, ![100000, W]⟩ .f32 :=
  maximumf x (broadcastInDim ⟨2, ![100000, W]⟩ ![] hl.bz (constant S_ .f32 0x00000000#32))

/-- The two hidden layers: `relu (conv (relu (conv (x · W₁) b₁) · W₂) b₂)`, over whatever spelling `P₁`, `P₂` of the two
    matrix products a program uses. -/
def hiddenLayers (hf : IndexFacts) (hl : LayerFacts 128)
    (P₁ : FVec F ⟨2, ![100000, 256]⟩ .f32 → FVec F ⟨2, ![256, 128]⟩ .f32 → FVec F ⟨2, ![100000, 128]⟩ .f32)
    (P₂ : FVec F ⟨2, ![100000, 128]⟩ .f32 → FVec F ⟨2, ![128, 128]⟩ .f32 → FVec F ⟨2, ![100000, 128]⟩ .f32)
    (e : IVec S2x1600000 32) (x : FVec F ⟨2, ![100000, 256]⟩ .f32) (W₁ : FVec F ⟨2, ![256, 128]⟩ .f32) (b₁ : FVec F ⟨1, ![128]⟩ .f32)
    (W₂ : FVec F ⟨2, ![128, 128]⟩ .f32) (b₂ : FVec F ⟨1, ![128]⟩ .f32) : FVec F ⟨2, ![100000, 128]⟩ .f32 :=
  relu hl (convLayer hf hl (srcOf hf e) (dstOf hf e) (nrmOf hf e)
    (P₂ (relu hl (convLayer hf hl (srcOf hf e) (dstOf hf e) (nrmOf hf e) (P₁ x W₁) b₁)) W₂) b₂)

end Cert.Gcn

end
-- ==== Proof.KernelValue.lean ====
/-
  What the kernel program's buffers hold at its segment boundaries, in the encoder's vocabulary.

  The program's host stretches are the index vectors and the normalisation (before the first product), one layer's
  aggregation and `relu` after each of the first two products, the joining of the two output weight matrices and
  biases before the third, and after it the aggregation on 128 columns cut into its two column halves.  Each stretch
  is read as one function of the buffers it finds; a buffer no operation of a stretch (and no region) writes is
  carried across it unchanged.
-/
import proofs.«100902_j1211180778233_1_alg».proof.Proof.KernelRun
import proofs.«100902_j1211180778233_1_alg».proof.Proof.GcnSpec

set_option maxRecDepth 16384

noncomputable section

namespace Cert.KernelIdeal.KValue

open Cert.KernelIdeal Cert.KernelIdeal.Gen Cert.Gcn
open Idealize.ShloMosaic Idealize.ShloMosaic.TcCoe Idealize.SL.Sem Idealize.ShloMosaic.StableHlo

/-- The kernel program's own proofs of the index vectors' shape facts. -/
theorem hf : IndexFacts :=
  ⟨Gen.slices_S2x1600000_S1x1600000_0_0, Gen.slices_S2x1600000_S1x1600000_1_0, Gen.shapeCasts_S1x1600000_S1600000,
   Gen.concatenates_S1600000_S100000_S1700000_d0, Gen.bcast_S_S1700000, Gen.bcast_S_S100000, Gen.bcast_S1700000_S1700000x1_0,
   Gen.scatter_S100000_S1700000x1_S1700000_n_0_0_1_wf, Gen.gather_S100000_S1700000x1_S1700000_n_0_n_n_0_1_1_wf⟩

/-- … and of a layer's on 128 columns. -/
theorem hl128 : LayerFacts 128 :=
  ⟨Gen.bcast_S1700000x1_S1700000x128_0_1, Gen.bcast_S_S100000x128, Gen.bcast_S128_S1x128_1, Gen.bcast_S1x128_S100000x128_0_1,
   Gen.gather_S100000x128_S1700000x1_S1700000x128_1_0_n_n_0_1_1128_wf, Gen.scatter_S100000x128_S1700000x1_S1700000x128_1_0_0_1_wf⟩

variable {F : FTy → Type} [FloatOps F]
variable (m : (ℓ : Loc nD τ sig) → Buf (Elt F) ℓ) (ρ : Dev nD → PrngReg)

/-- No operation of the stretch writes the buffer: it holds after the stretch what it held before. -/
macro "skip_stretch " ops:ident : tactic => `(tactic| (
  refine StableHlo.after_of_forall_not_mem _ _ (List.forall_iff_forall_mem.mp ?_)
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Buffers carried across boundaries -/

theorem carry_v3_4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem carry_v3_7 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := by skip_stretch hostOps1_1
    _ = W4 m ρ c (Proc.devRef .tc main_v3) := by skip_stretch hostOps1
    _ = W3 m ρ c (Proc.devRef .tc main_v3) := W4_of_ne m ρ c main_v3 (by decide)

theorem carry_v3_11 (c : Dev nD) : W11 m ρ c (Proc.devRef .tc main_v3) = W3 m ρ c (Proc.devRef .tc main_v3) :=
  calc W11 m ρ c (Proc.devRef .tc main_v3)
    _ = W10 m ρ c (Proc.devRef .tc main_v3) := W11_of_ne m ρ c main_v3 (by decide)
    _ = W9 m ρ c (Proc.devRef .tc main_v3) := by skip_stretch hostOps2_2
    _ = W8 m ρ c (Proc.devRef .tc main_v3) := by skip_stretch hostOps2_1
    _ = W7 m ρ c (Proc.devRef .tc main_v3) := by skip_stretch hostOps2
    _ = W6 m ρ c (Proc.devRef .tc main_v3) := W7_of_ne m ρ c main_v3 (by decide)
    _ = W5 m ρ c (Proc.devRef .tc main_v3) := by skip_stretch hostOps1_1
    _ = W4 m ρ c (Proc.devRef .tc main_v3) := by skip_stretch hostOps1
    _ = W3 m ρ c (Proc.devRef .tc main_v3) := W4_of_ne m ρ c main_v3 (by decide)

theorem carry_v6_4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem carry_v6_7 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := by skip_stretch hostOps1_1
    _ = W4 m ρ c (Proc.devRef .tc main_v6) := by skip_stretch hostOps1
    _ = W3 m ρ c (Proc.devRef .tc main_v6) := W4_of_ne m ρ c main_v6 (by decide)

theorem carry_v6_11 (c : Dev nD) : W11 m ρ c (Proc.devRef .tc main_v6) = W3 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := by skip_stretch hostOps2_2
    _ = W8 m ρ c (Proc.devRef .tc main_v6) := by skip_stretch hostOps2_1
    _ = W7 m ρ c (Proc.devRef .tc main_v6) := by skip_stretch hostOps2
    _ = W6 m ρ c (Proc.devRef .tc main_v6) := W7_of_ne m ρ c main_v6 (by decide)
    _ = W5 m ρ c (Proc.devRef .tc main_v6) := by skip_stretch hostOps1_1
    _ = W4 m ρ c (Proc.devRef .tc main_v6) := by skip_stretch hostOps1
    _ = W3 m ρ c (Proc.devRef .tc main_v6) := W4_of_ne m ρ c main_v6 (by decide)

theorem carry_v31_4 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

theorem carry_v31_7 (c : Dev nD) : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := by skip_stretch hostOps1_1
    _ = W4 m ρ c (Proc.devRef .tc main_v31) := by skip_stretch hostOps1
    _ = W3 m ρ c (Proc.devRef .tc main_v31) := W4_of_ne m ρ c main_v31 (by decide)

theorem carry_v31_11 (c : Dev nD) : W11 m ρ c (Proc.devRef .tc main_v31) = W3 m ρ c (Proc.devRef .tc main_v31) :=
  calc W11 m ρ c (Proc.devRef .tc main_v31)
    _ = W10 m ρ c (Proc.devRef .tc main_v31) := W11_of_ne m ρ c main_v31 (by decide)
    _ = W9 m ρ c (Proc.devRef .tc main_v31) := by skip_stretch hostOps2_2
    _ = W8 m ρ c (Proc.devRef .tc main_v31) := by skip_stretch hostOps2_1
    _ = W7 m ρ c (Proc.devRef .tc main_v31) := by skip_stretch hostOps2
    _ = W6 m ρ c (Proc.devRef .tc main_v31) := W7_of_ne m ρ c main_v31 (by decide)
    _ = W5 m ρ c (Proc.devRef .tc main_v31) := by skip_stretch hostOps1_1
    _ = W4 m ρ c (Proc.devRef .tc main_v31) := by skip_stretch hostOps1
    _ = W3 m ρ c (Proc.devRef .tc main_v31) := W4_of_ne m ρ c main_v31 (by decide)

theorem carry_arg0_3 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by skip_stretch hostOps0_2
    _ = W1 m ρ c (Proc.devRef .tc main_arg0) := by skip_stretch hostOps0_1
    _ = W0 m ρ c (Proc.devRef .tc main_arg0) := by skip_stretch hostOps0

theorem carry_arg2_3 (c : Dev nD) : W3 m ρ c (Proc.devRef .tc main_arg2) = W0 m ρ c (Proc.devRef .tc main_arg2) :=
  calc W3 m ρ c (Proc.devRef .tc main_arg2)
    _ = W2 m ρ c (Proc.devRef .tc main_arg2) := by skip_stretch hostOps0_2
    _ = W1 m ρ c (Proc.devRef .tc main_arg2) := by skip_stretch hostOps0_1
    _ = W0 m ρ c (Proc.devRef .tc main_arg2) := by skip_stretch hostOps0

theorem carry_arg3_4 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := by skip_stretch hostOps0_2
    _ = W1 m ρ c (Proc.devRef .tc main_arg3) := by skip_stretch hostOps0_1
    _ = W0 m ρ c (Proc.devRef .tc main_arg3) := by skip_stretch hostOps0

theorem carry_arg4_6 (c : Dev nD) : W6 m ρ c (Proc.devRef .tc main_arg4) = W0 m ρ c (Proc.devRef .tc main_arg4) :=
  calc W6 m ρ c (Proc.devRef .tc main_arg4)
    _ = W5 m ρ c (Proc.devRef .tc main_arg4) := by skip_stretch hostOps1_1
    _ = W4 m ρ c (Proc.devRef .tc main_arg4) := by skip_stretch hostOps1
    _ = W3 m ρ c (Proc.devRef .tc main_arg4) := W4_of_ne m ρ c main_arg4 (by decide)
    _ = W2 m ρ c (Proc.devRef .tc main_arg4) := by skip_stretch hostOps0_2
    _ = W1 m ρ c (Proc.devRef .tc main_arg4) := by skip_stretch hostOps0_1
    _ = W0 m ρ c (Proc.devRef .tc main_arg4) := by skip_stretch hostOps0

theorem carry_arg5_7 (c : Dev nD) : W7 m ρ c (Proc.devRef .tc main_arg5) = W0 m ρ c (Proc.devRef .tc main_arg5) :=
  calc W7 m ρ c (Proc.devRef .tc main_arg5)
    _ = W6 m ρ c (Proc.devRef .tc main_arg5) := W7_of_ne m ρ c main_arg5 (by decide)
    _ = W5 m ρ c (Proc.devRef .tc main_arg5) := by skip_stretch hostOps1_1
    _ = W4 m ρ c (Proc.devRef .tc main_arg5) := by skip_stretch hostOps1
    _ = W3 m ρ c (Proc.devRef .tc main_arg5) := W4_of_ne m ρ c main_arg5 (by decide)
    _ = W2 m ρ c (Proc.devRef .tc main_arg5) := by skip_stretch hostOps0_2
    _ = W1 m ρ c (Proc.devRef .tc main_arg5) := by skip_stretch hostOps0_1
    _ = W0 m ρ c (Proc.devRef .tc main_arg5) := by skip_stretch hostOps0

theorem carry_arg6_9 (c : Dev nD) : W9 m ρ c (Proc.devRef .tc main_arg6) = W0 m ρ c (Proc.devRef .tc main_arg6) :=
  calc W9 m ρ c (Proc.devRef .tc main_arg6)
    _ = W8 m ρ c (Proc.devRef .tc main_arg6) := by skip_stretch hostOps2_1
    _ = W7 m ρ c (Proc.devRef .tc main_arg6) := by skip_stretch hostOps2
    _ = W6 m ρ c (Proc.devRef .tc main_arg6) := W7_of_ne m ρ c main_arg6 (by decide)
    _ = W5 m ρ c (Proc.devRef .tc main_arg6) := by skip_stretch hostOps1_1
    _ = W4 m ρ c (Proc.devRef .tc main_arg6) := by skip_stretch hostOps1
    _ = W3 m ρ c (Proc.devRef .tc main_arg6) := W4_of_ne m ρ c main_arg6 (by decide)
    _ = W2 m ρ c (Proc.devRef .tc main_arg6) := by skip_stretch hostOps0_2
    _ = W1 m ρ c (Proc.devRef .tc main_arg6) := by skip_stretch hostOps0_1
    _ = W0 m ρ c (Proc.devRef .tc main_arg6) := by skip_stretch hostOps0

theorem carry_arg7_9 (c : Dev nD) : W9 m ρ c (Proc.devRef .tc main_arg7) = W0 m ρ c (Proc.devRef .tc main_arg7) :=
  calc W9 m ρ c (Proc.devRef .tc main_arg7)
    _ = W8 m ρ c (Proc.devRef .tc main_arg7) := by skip_stretch hostOps2_1
    _ = W7 m ρ c (Proc.devRef .tc main_arg7) := by skip_stretch hostOps2
    _ = W6 m ρ c (Proc.devRef .tc main_arg7) := W7_of_ne m ρ c main_arg7 (by decide)
    _ = W5 m ρ c (Proc.devRef .tc main_arg7) := by skip_stretch hostOps1_1
    _ = W4 m ρ c (Proc.devRef .tc main_arg7) := by skip_stretch hostOps1
    _ = W3 m ρ c (Proc.devRef .tc main_arg7) := W4_of_ne m ρ c main_arg7 (by decide)
    _ = W2 m ρ c (Proc.devRef .tc main_arg7) := by skip_stretch hostOps0_2
    _ = W1 m ρ c (Proc.devRef .tc main_arg7) := by skip_stretch hostOps0_1
    _ = W0 m ρ c (Proc.devRef .tc main_arg7) := by skip_stretch hostOps0

theorem carry_arg8_9 (c : Dev nD) : W9 m ρ c (Proc.devRef .tc main_arg8) = W0 m ρ c (Proc.devRef .tc main_arg8) :=
  calc W9 m ρ c (Proc.devRef .tc main_arg8)
    _ = W8 m ρ c (Proc.devRef .tc main_arg8) := by skip_stretch hostOps2_1
    _ = W7 m ρ c (Proc.devRef .tc main_arg8) := by skip_stretch hostOps2
    _ = W6 m ρ c (Proc.devRef .tc main_arg8) := W7_of_ne m ρ c main_arg8 (by decide)
    _ = W5 m ρ c (Proc.devRef .tc main_arg8) := by skip_stretch hostOps1_1
    _ = W4 m ρ c (Proc.devRef .tc main_arg8) := by skip_stretch hostOps1
    _ = W3 m ρ c (Proc.devRef .tc main_arg8) := W4_of_ne m ρ c main_arg8 (by decide)
    _ = W2 m ρ c (Proc.devRef .tc main_arg8) := by skip_stretch hostOps0_2
    _ = W1 m ρ c (Proc.devRef .tc main_arg8) := by skip_stretch hostOps0_1
    _ = W0 m ρ c (Proc.devRef .tc main_arg8) := by skip_stretch hostOps0

theorem carry_arg9_9 (c : Dev nD) : W9 m ρ c (Proc.devRef .tc main_arg9) = W0 m ρ c (Proc.devRef .tc main_arg9) :=
  calc W9 m ρ c (Proc.devRef .tc main_arg9)
    _ = W8 m ρ c (Proc.devRef .tc main_arg9) := by skip_stretch hostOps2_1
    _ = W7 m ρ c (Proc.devRef .tc main_arg9) := by skip_stretch hostOps2
    _ = W6 m ρ c (Proc.devRef .tc main_arg9) := W7_of_ne m ρ c main_arg9 (by decide)
    _ = W5 m ρ c (Proc.devRef .tc main_arg9) := by skip_stretch hostOps1_1
    _ = W4 m ρ c (Proc.devRef .tc main_arg9) := by skip_stretch hostOps1
    _ = W3 m ρ c (Proc.devRef .tc main_arg9) := W4_of_ne m ρ c main_arg9 (by decide)
    _ = W2 m ρ c (Proc.devRef .tc main_arg9) := by skip_stretch hostOps0_2
    _ = W1 m ρ c (Proc.devRef .tc main_arg9) := by skip_stretch hostOps0_1
    _ = W0 m ρ c (Proc.devRef .tc main_arg9) := by skip_stretch hostOps0

theorem carry_v67_10 (c : Dev nD) : W10 m ρ c (Proc.devRef .tc main_v67) = W9 m ρ c (Proc.devRef .tc main_v67) :=
  calc W10 m ρ c (Proc.devRef .tc main_v67)
    _ = W9 m ρ c (Proc.devRef .tc main_v67) := by skip_stretch hostOps2_2

theorem carry_v69_11 (c : Dev nD) : W11 m ρ c (Proc.devRef .tc main_v69) = W10 m ρ c (Proc.devRef .tc main_v69) :=
  calc W11 m ρ c (Proc.devRef .tc main_v69)
    _ = W10 m ρ c (Proc.devRef .tc main_v69) := W11_of_ne m ρ c main_v69 (by decide)

/-- The launch contents are the memory. -/
theorem at0 (c : Dev nD) (b : Ref sig .tc) : W0 m ρ c (Proc.devRef .tc b) = m ((c : Thread nD τ).loc b) := rfl

/-! ## The stretches -/

/-- Before the first product: the source index vector. -/
theorem src_at3 (c : Dev nD) : W3 m ρ c (Proc.devRef .tc main_v3) = srcOf hf (m ((c : Thread nD τ).loc main_arg1)) := by
  show StableHlo.after hostOps0_2 (StableHlo.after hostOps0_1 (StableHlo.after hostOps0 (W0 m ρ c))) (Proc.devRef .tc main_v3) = _
  dsimp only [hostOps0_2, hostOps0_1, hostOps0]
  after_results_simp <;> rfl

/-- … the target index vector. -/
theorem dst_at3 (c : Dev nD) : W3 m ρ c (Proc.devRef .tc main_v6) = dstOf hf (m ((c : Thread nD τ).loc main_arg1)) := by
  show StableHlo.after hostOps0_2 (StableHlo.after hostOps0_1 (StableHlo.after hostOps0 (W0 m ρ c))) (Proc.devRef .tc main_v6) = _
  dsimp only [hostOps0_2, hostOps0_1, hostOps0]
  after_results_simp <;> rfl

set_option maxHeartbeats 4000000 in
/-- … and the normalisation. -/
theorem nrm_at3 (c : Dev nD) : W3 m ρ c (Proc.devRef .tc main_v31) = nrmOf (F := F) hf (m ((c : Thread nD τ).loc main_arg1)) := by
  show StableHlo.after hostOps0_2 (StableHlo.after hostOps0_1 (StableHlo.after hostOps0 (W0 m ρ c))) (Proc.devRef .tc main_v31) = _
  dsimp only [hostOps0_2, hostOps0_1, hostOps0]
  after_results_simp <;> (unfold nrmOf disOf degOf wrap srcOf dstOf; rfl)

/-- After the first product: the first hidden layer, of the buffers the stretch finds. -/
theorem layer1_at6 (c : Dev nD) : W6 m ρ c (Proc.devRef .tc main_v49)
    = relu hl128 (convLayer hf hl128 (W4 m ρ c (Proc.devRef .tc main_v3)) (W4 m ρ c (Proc.devRef .tc main_v6)) (W4 m ρ c (Proc.devRef .tc main_v31)) (W4 m ρ c (Proc.devRef .tc main_v32)) (W4 m ρ c (Proc.devRef .tc main_arg3))) := by
  show StableHlo.after hostOps1_1 (StableHlo.after hostOps1 (W4 m ρ c)) (Proc.devRef .tc main_v49) = _
  dsimp only [hostOps1_1, hostOps1]
  after_results_simp <;> rfl

/-- After the second product: the second hidden layer. -/
theorem layer2_at9 (c : Dev nD) : W9 m ρ c (Proc.devRef .tc main_v67)
    = relu hl128 (convLayer hf hl128 (W7 m ρ c (Proc.devRef .tc main_v3)) (W7 m ρ c (Proc.devRef .tc main_v6)) (W7 m ρ c (Proc.devRef .tc main_v31)) (W7 m ρ c (Proc.devRef .tc main_v50)) (W7 m ρ c (Proc.devRef .tc main_arg5))) := by
  show StableHlo.after hostOps2_1 (StableHlo.after hostOps2 (W7 m ρ c)) (Proc.devRef .tc main_v67) = _
  dsimp only [hostOps2_1, hostOps2]
  after_results_simp <;> rfl

/-- The two output weight matrices joined along columns. -/
theorem wcomb_at10 (c : Dev nD) : W10 m ρ c (Proc.devRef .tc main_v68)
    = concatenate S128x128 1 [⟨S128x64, (W9 m ρ c (Proc.devRef .tc main_arg6))⟩, ⟨S128x64, (W9 m ρ c (Proc.devRef .tc main_arg8))⟩] Gen.concatenates_S128x64_S128x64_S128x128_d1 := by
  show StableHlo.after hostOps2_2 (W9 m ρ c) (Proc.devRef .tc main_v68) = _
  dsimp only [hostOps2_2]
  after_results_simp <;> rfl

/-- The two output biases joined. -/
theorem bcomb_at10 (c : Dev nD) : W10 m ρ c (Proc.devRef .tc main_v69)
    = concatenate S128 0 [⟨S64, (W9 m ρ c (Proc.devRef .tc main_arg7))⟩, ⟨S64, (W9 m ρ c (Proc.devRef .tc main_arg9))⟩] Gen.concatenates_S64_S64_S128_d0 := by
  show StableHlo.after hostOps2_2 (W9 m ρ c) (Proc.devRef .tc main_v69) = _
  dsimp only [hostOps2_2]
  after_results_simp <;> rfl

/-- After the third product: the output layer on 128 columns, its left column half. -/
theorem out0_at12 (c : Dev nD) : W12 m ρ c (Proc.devRef .tc main_v87)
    = extractStridedSlice S100000x64 ![0, 0] (convLayer hf hl128 (W11 m ρ c (Proc.devRef .tc main_v3)) (W11 m ρ c (Proc.devRef .tc main_v6)) (W11 m ρ c (Proc.devRef .tc main_v31)) (W11 m ρ c (Proc.devRef .tc main_v70)) (W11 m ρ c (Proc.devRef .tc main_v69))) Gen.slices_S100000x128_S100000x64_0_0 := by
  show StableHlo.after hostOps3 (W11 m ρ c) (Proc.devRef .tc main_v87) = _
  dsimp only [hostOps3]
  after_results_simp <;> rfl

/-- … and its right column half. -/
theorem out1_at12 (c : Dev nD) : W12 m ρ c (Proc.devRef .tc main_v88)
    = extractStridedSlice S100000x64 ![0, 64] (convLayer hf hl128 (W11 m ρ c (Proc.devRef .tc main_v3)) (W11 m ρ c (Proc.devRef .tc main_v6)) (W11 m ρ c (Proc.devRef .tc main_v31)) (W11 m ρ c (Proc.devRef .tc main_v70)) (W11 m ρ c (Proc.devRef .tc main_v69))) Gen.slices_S100000x128_S100000x64_0_64 := by
  show StableHlo.after hostOps3 (W11 m ρ c) (Proc.devRef .tc main_v88) = _
  dsimp only [hostOps3]
  after_results_simp <;> rfl

end Cert.KernelIdeal.KValue

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.LibPlainProduct.lean ====
/-
  The matrix product as ONE function of its two operands, and the two spellings a program gives it.

  `prod l r` is the `M × N` array whose entry `(p, q)` is `∑ k, l (p, k) · r (k, q)`, a sum over the shared axis of
  extent `K`, taken over the extended reals.  A `tpu.matmul` into the zero accumulator and the host's `dot_general`,
  each carrying the dimension numbers of a plain product (`IsPlain`), are both `prod` of their operands — whatever the
  operands' float formats, and for the host whatever its schedule key.  So a kernel that multiplies row blocks and a
  reference that multiplies the whole array meet at `prod`: row `p` of the product depends on row `p` of the left
  operand only.
-/
import proofs.«100902_j1211180778233_1_alg».proof.Proof.LibMatmulPlain

noncomputable section

namespace Idealize.ShloMosaic.MatmulPlain

open Idealize.ShloMosaic Idealize.ShloMosaic.ValueIdx
open scoped BigOperators

variable {M N K : Nat} {D : DotDims ⟨2, ![M, K]⟩ ⟨2, ![K, N]⟩ ⟨2, ![M, N]⟩}

/-- The product of an `M × K` and a `K × N` array: entry `j` is the sum over the shared axis of the products of row
    `j 0` of the left operand with column `j 1` of the right one. -/
def prod {φ₁ φ₂ : FTy} (l : FVec Ideal ⟨2, ![M, K]⟩ φ₁) (r : FVec Ideal ⟨2, ![K, N]⟩ φ₂) : FVec Ideal ⟨2, ![M, N]⟩ .f32 :=
  fun j => ∑ k : Fin K, l (ix2 (j 0) k) * r (ix2 k (j 1))

theorem prod_apply {φ₁ φ₂ : FTy} (l : FVec Ideal ⟨2, ![M, K]⟩ φ₁) (r : FVec Ideal ⟨2, ![K, N]⟩ φ₂) (p : Fin M) (q : Fin N) :
    prod l r (ix2 p q) = ∑ k : Fin K, l (ix2 p k) * r (ix2 k q) := rfl

/-- The host's `dot_general` with a plain product's dimension numbers, read at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply, ← Equiv.sum_comp h.contrEquiv.symm]
  refine Finset.sum_congr rfl fun k _ => ?_
  rw [h.lhsIdx_eq, h.rhsIdx_eq]

/-- A `tpu.matmul` into the zero accumulator is the product. -/
theorem matmul_zero_eq_prod (h : IsPlain D) {φ₁ φ₂ : FTy} (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = prod l r := by
  funext j
  obtain ⟨p, q, rfl⟩ : ∃ (p : Fin M) (q : Fin N), j = ix2 p q := ⟨j 0, j 1, eq_ix2 j⟩
  exact matmul_zero_apply h prec l r p q

/-- The host's `dot_general` is the product. -/
theorem dotGeneral_eq_prod (h : IsPlain D) {φ₁ φ₂ : FTy} (prec : Option ContractPrecision) (sched : HostSchedule)
    (l : FVec Ideal ⟨2, ![M, K]⟩ φ₁) (r : FVec Ideal ⟨2, ![K, N]⟩ φ₂) :
    FloatOps.dotGeneral D prec sched l r = prod l r := by
  funext j
  obtain ⟨p, q, rfl⟩ : ∃ (p : Fin M) (q : Fin N), j = ix2 p q := ⟨j 0, j 1, eq_ix2 j⟩
  exact dotGeneral_apply h prec sched l r p q

/-- Row `p` of the product is the product of row `p`: if two left operands agree on a row (here: a row of a block and
    the row of the whole array it was cut from), the products agree on that row. -/
theorem prod_row_congr {M' : Nat} {φ₁ φ₁' φ₂ : FTy} (l : FVec Ideal ⟨2, ![M, K]⟩ φ₁) (l' : FVec Ideal ⟨2, ![M', K]⟩ φ₁')
    (r : FVec Ideal ⟨2, ![K, N]⟩ φ₂) (p : Fin M) (p' : Fin M') (q : Fin N)
    (hrow : ∀ k : Fin K, l (ix2 p k) = l' (ix2 p' k)) :
    prod l r (ix2 p q) = prod l' r (ix2 p' q) := by
  rw [prod_apply, prod_apply]
  exact Finset.sum_congr rfl fun k _ => by rw [hrow k]

end Idealize.ShloMosaic.MatmulPlain

end
-- ==== Proof.LibProdEntries.lean ====
/-
  An entry of a matrix product depends on one row of the left operand and one column of the right one.

  If row `j 0` of `l` is row `j' 0` of `l'` and column `j 1` of `r` is column `j' 1` of `r'`, then entry `j` of
  `l · r` is entry `j'` of `l' · r'`: the two sums over the shared axis agree term by term.  This is how a product
  taken on a block of rows is read as a block of the product of the whole arrays.
-/
import proofs.«100902_j1211180778233_1_alg».proof.Proof.LibPlainProduct

noncomputable section

namespace Idealize.ShloMosaic.MatmulPlain

open Idealize.ShloMosaic Idealize.ShloMosaic.ValueIdx
open scoped BigOperators

/-- Entry `j` of `l · r` is entry `j'` of `l' · r'` when row `j 0` of `l` is row `j' 0` of `l'` and column `j 1` of `r` is
    column `j' 1` of `r'` (the operands may have different numbers of rows and of columns, and any float formats). -/
theorem prod_entry_congr {M M' K N N' : Nat} {φ₁ φ₁' φ₂ φ₂' : FTy}
    (l : FVec Ideal ⟨2, ![M, K]⟩ φ₁) (r : FVec Ideal ⟨2, ![K, N]⟩ φ₂)
    (l' : FVec Ideal ⟨2, ![M', K]⟩ φ₁') (r' : FVec Ideal ⟨2, ![K, N']⟩ φ₂')
    (j : (⟨2, ![M, N]⟩ : Shape).Idx) (j' : (⟨2, ![M', N']⟩ : Shape).Idx)
    (hl : ∀ k : Fin K, l (ix2 (j 0) k) = l' (ix2 (j' 0) k))
    (hr : ∀ k : Fin K, r (ix2 k (j 1)) = r' (ix2 k (j' 1))) :
    prod l r j = prod l' r' j' := by
  show ∑ k : Fin K, l (ix2 (j 0) k) * r (ix2 k (j 1)) = ∑ k : Fin K, l' (ix2 (j' 0) k) * r' (ix2 k (j' 1))
  exact Finset.sum_congr rfl fun k _ => by rw [hl k, hr k]

end Idealize.ShloMosaic.MatmulPlain

end
-- ==== Proof.RegionProduct0.lean ====
/-
  Region 0 computes a matrix product one block of rows at a time.

  Its grid has 20 points.  Point `t` multiplies rows `5000 t … 5000 t + 4999` of the left array (100000 × 256) by the
  whole right array (256 × 128), both operands rounded to bf16 (the identity over the extended reals) and the
  accumulator zero, and writes the result as rows `5000 t … 5000 t + 4999` of the output array (100000 × 128).  An entry
  of a product depends on one row of the left operand and one column of the right one, so what a point writes is its
  block of rows of the product of the WHOLE arrays; every row `r` lies in the block of point `r / 5000`; hence after
  the region the output array is the product of the two input arrays as the region found them.
-/
import proofs.«100902_j1211180778233_1_alg».proof.Proof.Gen.KernelIdeal.Frame
import proofs.«100902_j1211180778233_1_alg».proof.Proof.LibProdEntries
import Idealize.ShloMosaic.Lib.Pipeline.Value

noncomputable section

namespace Cert.KernelIdeal.RegionValue

open Cert.KernelIdeal Idealize.ShloMosaic Idealize.ShloMosaic.TcCoe Idealize.SL.Sem
open Idealize.ShloMosaic.Pipeline (Dat)
open Idealize.ShloMosaic.ValueIdx Idealize.ShloMosaic.MatmulPlain

variable (V : (c : Dev nD) → (b : Ref sig .tc) → Buf (Elt Ideal) ((c : Thread nD τ).loc b))

theorem zero_offsets0 : (![0, 0] : Fin 2 → Nat) = fun _ => 0 := funext fun a => by fin_cases a <;> rfl

/-- The body's arithmetic is the product of its two loaded blocks: rounding the operands is the identity over the
    extended reals, and the accumulator starts at zero. -/
theorem payload0_eq (x0 : Vec Ideal S5000x256 .f32) (x1 : Vec Ideal S256x128 .f32) :
    Gen.k0_pay1 (F := Ideal) x0 x1 = prod (M := 5000) (K := 256) (N := 128) (φ₁ := .f32) (φ₂ := .f32) x0 x1 := by
  unfold Gen.k0_pay1
  exact matmul_zero_eq_prod (D := dot_S5000x256_S256x128_S5000x128_1_0_0_1_n_n) ⟨rfl, rfl, rfl, rfl, rfl, rfl⟩ none _ _

/-- The block indices of the three windows at a point of the grid: the left operand's and the output's blocks are
    the point's own block of rows, the right operand's block is the whole array. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `5000 t … 5000 t + 4999` of its array. -/
theorem left_block0_apply (c : Dev nD) (t : Fin cfg0.N) (x : S5000x256.Idx) (k : S100000x256.Idx)
    (hk0 : (k 0).val = 5000 * t.val + (x 0).val) (hk1 : (k 1).val = (x 1).val) :
    (Gen.iblk0 V c 0 t : Vec Ideal S5000x256 .f32) x = (V c main_arg0 : S100000x256.Idx → EReal) k := by
  obtain ⟨e0, e1, -⟩ := index_facts0 t
  unfold Gen.iblk0
  rw [View.read_apply]
  show V c main_arg0 _ = V c main_arg0 _
  refine congrArg (V c main_arg0) ?_
  funext a
  apply Fin.ext
  match a with
  | ⟨0, _⟩ => show win0_0.index t 0 * 5000 + 1 * (x 0).val = (k 0).val; rw [e0, hk0]; omega
  | ⟨1, _⟩ => show win0_0.index t 1 * 256 + 1 * (x 1).val = (k 1).val; rw [e1, hk1]; omega

/-- The right operand's block at every point is its whole array. -/
theorem right_block0_apply (c : Dev nD) (t : Fin cfg0.N) (x : S256x128.Idx) (k : S256x128.Idx)
    (hk0 : (k 0).val = (x 0).val) (hk1 : (k 1).val = (x 1).val) :
    (Gen.iblk0 V c 1 t : Vec Ideal S256x128 .f32) x = (V c main_arg2 : S256x128.Idx → EReal) k := by
  obtain ⟨-, -, e0, e1, -⟩ := index_facts0 t
  unfold Gen.iblk0
  rw [View.read_apply]
  show V c main_arg2 _ = V c main_arg2 _
  refine congrArg (V c main_arg2) ?_
  funext a
  apply Fin.ext
  match a with
  | ⟨0, _⟩ => show win0_1.index t 0 * 256 + 1 * (x 0).val = (k 0).val; rw [e0, hk0]; omega
  | ⟨1, _⟩ => show win0_1.index t 1 * 128 + 1 * (x 1).val = (k 1).val; rw [e1, hk1]; omega

/-- What point `t` writes back is its block of rows of the product of the two arrays. -/
theorem written0_eq (c : Dev nD) (t : Fin cfg0.N) :
    (Gen.dat0 (F := Ideal) V c).flushed 2 t
      = ((cfg0.win 2).blk t).view.read (Elt Ideal)
          (prod (M := 100000) (K := 256) (N := 128) (φ₁ := .f32) (φ₂ := .f32) (V c main_arg0) (V c main_arg2)) := by
  show (cfg0.win 2).cut (grid0.coords t) ((Gen.dat0 V c).after 2 t) = _
  rw [Gen.after0_2]
  unfold Gen.out0_2
  rw [View.canon_unit_zero zero_offsets0]
  simp only [View.ld_unit_zero (S := S5000x256) zero_offsets0, View.ld_unit_zero (S := S256x128) zero_offsets0]
  rw [payload0_eq]
  obtain ⟨-, -, -, -, e0, e1⟩ := index_facts0 t
  funext j
  rw [View.read_apply]
  show prod (Gen.iblk0 V c 0 t) (Gen.iblk0 V c 1 t) j = prod _ _ (((cfg0.win 2).blk t).view.emb j)
  refine prod_entry_congr _ _ _ _ _ _ (fun k => ?_) (fun k => ?_)
  · refine left_block0_apply V c t _ _ ?_ rfl
    show win0_2.index t 0 * 5000 + 1 * (j 0).val = 5000 * t.val + (j 0).val
    rw [e0]; omega
  · refine right_block0_apply V c t _ _ rfl ?_
    show win0_2.index t 1 * 128 + 1 * (j 1).val = (j 1).val
    rw [e1]; omega

/-- An index of the output array is in point `t`'s block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- Every row of the output array is written by some point: row `r` by point `r / 5000`. -/
theorem rows_covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := Gen.N_0
  have ht : (i 0).val / 5000 < cfg0.N := by show (i 0).val / 5000 < grid0.N; rw [hN]; omega
  obtain ⟨-, -, -, -, e0, e1⟩ := index_facts0 ⟨(i 0).val / 5000, ht⟩
  refine ⟨⟨(i 0).val / 5000, ht⟩, Gen.flush0_2 _, ?_⟩
  rw [mem_block0]
  intro a
  match a with
  | ⟨0, _⟩ =>
    show win0_2.index ⟨(i 0).val / 5000, ht⟩ 0 * 5000 ≤ (i 0).val
      ∧ (i 0).val < win0_2.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_2.index ⟨(i 0).val / 5000, ht⟩ 1 * 128 ≤ (i 1).val
      ∧ (i 1).val < win0_2.index ⟨(i 0).val / 5000, ht⟩ 1 * 128 + 128
    rw [e1]; omega

/-- After region 0 its output array is the product of its two input arrays as the region found them. -/
theorem array0 (c : Dev nD) :
    (Gen.dat0 (F := Ideal) V c).arrAt 2 cfg0.N
      = prod (M := 100000) (K := 256) (N := 128) (φ₁ := .f32) (φ₂ := .f32) (V c main_arg0) (V c main_arg2) :=
  (Gen.dat0 V c).arrAt_eq_of_cover 2 _ (fun t _ => written0_eq V c t) rows_covered0

end Cert.KernelIdeal.RegionValue

end
-- ==== Proof.RegionProduct1.lean ====
/-
  Region 1 computes a matrix product one block of rows at a time.

  Its grid has 20 points.  Point `t` multiplies rows `5000 t … 5000 t + 4999` of the left array (100000 × 128) by the
  whole right array (128 × 128), both operands rounded to bf16 (the identity over the extended reals) and the
  accumulator zero, and writes the result as rows `5000 t … 5000 t + 4999` of the output array (100000 × 128).  An entry
  of a product depends on one row of the left operand and one column of the right one, so what a point writes is its
  block of rows of the product of the WHOLE arrays; every row `r` lies in the block of point `r / 5000`; hence after
  the region the output array is the product of the two input arrays as the region found them.
-/
import proofs.«100902_j1211180778233_1_alg».proof.Proof.Gen.KernelIdeal.Frame
import proofs.«100902_j1211180778233_1_alg».proof.Proof.LibProdEntries
import Idealize.ShloMosaic.Lib.Pipeline.Value

noncomputable section

namespace Cert.KernelIdeal.RegionValue

open Cert.KernelIdeal Idealize.ShloMosaic Idealize.ShloMosaic.TcCoe Idealize.SL.Sem
open Idealize.ShloMosaic.Pipeline (Dat)
open Idealize.ShloMosaic.ValueIdx Idealize.ShloMosaic.MatmulPlain

variable (V : (c : Dev nD) → (b : Ref sig .tc) → Buf (Elt Ideal) ((c : Thread nD τ).loc b))

theorem zero_offsets1 : (![0, 0] : Fin 2 → Nat) = fun _ => 0 := funext fun a => by fin_cases a <;> rfl

/-- The body's arithmetic is the product of its two loaded blocks: a cast to the same shape and rounding the operands are the identity
    over the extended reals, and the accumulator starts at zero. -/
theorem payload1_eq (x0 : Vec Ideal S5000x128 .f32) (x1 : Vec Ideal S128x128 .f32) :
    Gen.k1_pay1 (F := Ideal) x0 x1 = prod (M := 5000) (K := 128) (N := 128) (φ₁ := .f32) (φ₂ := .f32) x0 x1 := by
  unfold Gen.k1_pay1
  simp only [shapeCast_self]
  exact matmul_zero_eq_prod (D := dot_S5000x128_S128x128_S5000x128_1_0_0_1_n_n) ⟨rfl, rfl, rfl, rfl, rfl, rfl⟩ none _ _

/-- The block indices of the three windows at a point of the grid: the left operand's and the output's blocks are
    the point's own block of rows, the right operand's block is the whole array. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `5000 t … 5000 t + 4999` of its array. -/
theorem left_block1_apply (c : Dev nD) (t : Fin cfg1.N) (x : S5000x128.Idx) (k : S100000x128.Idx)
    (hk0 : (k 0).val = 5000 * t.val + (x 0).val) (hk1 : (k 1).val = (x 1).val) :
    (Gen.iblk1 V c 0 t : Vec Ideal S5000x128 .f32) x = (V c main_v49 : S100000x128.Idx → EReal) k := by
  obtain ⟨e0, e1, -⟩ := index_facts1 t
  unfold Gen.iblk1
  rw [View.read_apply]
  show V c main_v49 _ = V c main_v49 _
  refine congrArg (V c main_v49) ?_
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The right operand's block at every point is its whole array. -/
theorem right_block1_apply (c : Dev nD) (t : Fin cfg1.N) (x : S128x128.Idx) (k : S128x128.Idx)
    (hk0 : (k 0).val = (x 0).val) (hk1 : (k 1).val = (x 1).val) :
    (Gen.iblk1 V c 1 t : Vec Ideal S128x128 .f32) x = (V c main_arg4 : S128x128.Idx → EReal) k := by
  obtain ⟨-, -, e0, e1, -⟩ := index_facts1 t
  unfold Gen.iblk1
  rw [View.read_apply]
  show V c main_arg4 _ = V c main_arg4 _
  refine congrArg (V c main_arg4) ?_
  funext a
  apply Fin.ext
  match a with
  | ⟨0, _⟩ => show win1_1.index t 0 * 128 + 1 * (x 0).val = (k 0).val; rw [e0, hk0]; omega
  | ⟨1, _⟩ => show win1_1.index t 1 * 128 + 1 * (x 1).val = (k 1).val; rw [e1, hk1]; omega

/-- What point `t` writes back is its block of rows of the product of the two arrays. -/
theorem written1_eq (c : Dev nD) (t : Fin cfg1.N) :
    (Gen.dat1 (F := Ideal) V c).flushed 2 t
      = ((cfg1.win 2).blk t).view.read (Elt Ideal)
          (prod (M := 100000) (K := 128) (N := 128) (φ₁ := .f32) (φ₂ := .f32) (V c main_v49) (V c main_arg4)) := by
  show (cfg1.win 2).cut (grid1.coords t) ((Gen.dat1 V c).after 2 t) = _
  rw [Gen.after1_2]
  unfold Gen.out1_2
  rw [View.canon_unit_zero zero_offsets1]
  simp only [View.ld_unit_zero (S := S5000x128) zero_offsets1, View.ld_unit_zero (S := S128x128) zero_offsets1]
  rw [payload1_eq]
  obtain ⟨-, -, -, -, e0, e1⟩ := index_facts1 t
  funext j
  rw [View.read_apply]
  show prod (Gen.iblk1 V c 0 t) (Gen.iblk1 V c 1 t) j = prod _ _ (((cfg1.win 2).blk t).view.emb j)
  refine prod_entry_congr _ _ _ _ _ _ (fun k => ?_) (fun k => ?_)
  · refine left_block1_apply V c t _ _ ?_ rfl
    show win1_2.index t 0 * 5000 + 1 * (j 0).val = 5000 * t.val + (j 0).val
    rw [e0]; omega
  · refine right_block1_apply V c t _ _ rfl ?_
    show win1_2.index t 1 * 128 + 1 * (j 1).val = (j 1).val
    rw [e1]; omega

/-- An index of the output array is in point `t`'s block iff each coordinate is in the block's range on its axis. -/
theorem mem_block1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v50).slice (win1_2.rect t)).set ↔ _
  rw [View.set_slice_whole, Rect.mem_set_unit]
  exact Iff.rfl

/-- Every row of the output array is written by some point: row `r` by point `r / 5000`. -/
theorem rows_covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := Gen.N_1
  have ht : (i 0).val / 5000 < cfg1.N := by show (i 0).val / 5000 < grid1.N; rw [hN]; omega
  obtain ⟨-, -, -, -, e0, e1⟩ := index_facts1 ⟨(i 0).val / 5000, ht⟩
  refine ⟨⟨(i 0).val / 5000, ht⟩, Gen.flush1_2 _, ?_⟩
  rw [mem_block1]
  intro a
  match a with
  | ⟨0, _⟩ =>
    show win1_2.index ⟨(i 0).val / 5000, ht⟩ 0 * 5000 ≤ (i 0).val
      ∧ (i 0).val < win1_2.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_2.index ⟨(i 0).val / 5000, ht⟩ 1 * 128 ≤ (i 1).val
      ∧ (i 1).val < win1_2.index ⟨(i 0).val / 5000, ht⟩ 1 * 128 + 128
    rw [e1]; omega

/-- After region 1 its output array is the product of its two input arrays as the region found them. -/
theorem array1 (c : Dev nD) :
    (Gen.dat1 (F := Ideal) V c).arrAt 2 cfg1.N
      = prod (M := 100000) (K := 128) (N := 128) (φ₁ := .f32) (φ₂ := .f32) (V c main_v49) (V c main_arg4) :=
  (Gen.dat1 V c).arrAt_eq_of_cover 2 _ (fun t _ => written1_eq V c t) rows_covered1

end Cert.KernelIdeal.RegionValue

end
-- ==== Proof.RegionProduct2.lean ====
/-
  Region 2 computes a matrix product one block of rows at a time.

  Its grid has 20 points.  Point `t` multiplies rows `5000 t … 5000 t + 4999` of the left array (100000 × 128) by the
  whole right array (128 × 128), both operands rounded to bf16 (the identity over the extended reals) and the
  accumulator zero, and writes the result as rows `5000 t … 5000 t + 4999` of the output array (100000 × 128).  An entry
  of a product depends on one row of the left operand and one column of the right one, so what a point writes is its
  block of rows of the product of the WHOLE arrays; every row `r` lies in the block of point `r / 5000`; hence after
  the region the output array is the product of the two input arrays as the region found them.
-/
import proofs.«100902_j1211180778233_1_alg».proof.Proof.Gen.KernelIdeal.Frame
import proofs.«100902_j1211180778233_1_alg».proof.Proof.LibProdEntries
import Idealize.ShloMosaic.Lib.Pipeline.Value

noncomputable section

namespace Cert.KernelIdeal.RegionValue

open Cert.KernelIdeal Idealize.ShloMosaic Idealize.ShloMosaic.TcCoe Idealize.SL.Sem
open Idealize.ShloMosaic.Pipeline (Dat)
open Idealize.ShloMosaic.ValueIdx Idealize.ShloMosaic.MatmulPlain

variable (V : (c : Dev nD) → (b : Ref sig .tc) → Buf (Elt Ideal) ((c : Thread nD τ).loc b))

theorem zero_offsets2 : (![0, 0] : Fin 2 → Nat) = fun _ => 0 := funext fun a => by fin_cases a <;> rfl

/-- The body's arithmetic is the product of its two loaded blocks: a cast to the same shape and rounding the operands are the identity
    over the extended reals, and the accumulator starts at zero. -/
theorem payload2_eq (x0 : Vec Ideal S5000x128 .f32) (x1 : Vec Ideal S128x128 .f32) :
    Gen.k2_pay1 (F := Ideal) x0 x1 = prod (M := 5000) (K := 128) (N := 128) (φ₁ := .f32) (φ₂ := .f32) x0 x1 := by
  unfold Gen.k2_pay1
  simp only [shapeCast_self]
  exact matmul_zero_eq_prod (D := dot_S5000x128_S128x128_S5000x128_1_0_0_1_n_n) ⟨rfl, rfl, rfl, rfl, rfl, rfl⟩ none _ _

/-- The block indices of the three windows at a point of the grid: the left operand's and the output's blocks are
    the point's own block of rows, the right operand's block is the whole array. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `5000 t … 5000 t + 4999` of its array. -/
theorem left_block2_apply (c : Dev nD) (t : Fin cfg2.N) (x : S5000x128.Idx) (k : S100000x128.Idx)
    (hk0 : (k 0).val = 5000 * t.val + (x 0).val) (hk1 : (k 1).val = (x 1).val) :
    (Gen.iblk2 V c 0 t : Vec Ideal S5000x128 .f32) x = (V c main_v67 : S100000x128.Idx → EReal) k := by
  obtain ⟨e0, e1, -⟩ := index_facts2 t
  unfold Gen.iblk2
  rw [View.read_apply]
  show V c main_v67 _ = V c main_v67 _
  refine congrArg (V c main_v67) ?_
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The right operand's block at every point is its whole array. -/
theorem right_block2_apply (c : Dev nD) (t : Fin cfg2.N) (x : S128x128.Idx) (k : S128x128.Idx)
    (hk0 : (k 0).val = (x 0).val) (hk1 : (k 1).val = (x 1).val) :
    (Gen.iblk2 V c 1 t : Vec Ideal S128x128 .f32) x = (V c main_v68 : S128x128.Idx → EReal) k := by
  obtain ⟨-, -, e0, e1, -⟩ := index_facts2 t
  unfold Gen.iblk2
  rw [View.read_apply]
  show V c main_v68 _ = V c main_v68 _
  refine congrArg (V c main_v68) ?_
  funext a
  apply Fin.ext
  match a with
  | ⟨0, _⟩ => show win2_1.index t 0 * 128 + 1 * (x 0).val = (k 0).val; rw [e0, hk0]; omega
  | ⟨1, _⟩ => show win2_1.index t 1 * 128 + 1 * (x 1).val = (k 1).val; rw [e1, hk1]; omega

/-- What point `t` writes back is its block of rows of the product of the two arrays. -/
theorem written2_eq (c : Dev nD) (t : Fin cfg2.N) :
    (Gen.dat2 (F := Ideal) V c).flushed 2 t
      = ((cfg2.win 2).blk t).view.read (Elt Ideal)
          (prod (M := 100000) (K := 128) (N := 128) (φ₁ := .f32) (φ₂ := .f32) (V c main_v67) (V c main_v68)) := by
  show (cfg2.win 2).cut (grid2.coords t) ((Gen.dat2 V c).after 2 t) = _
  rw [Gen.after2_2]
  unfold Gen.out2_2
  rw [View.canon_unit_zero zero_offsets2]
  simp only [View.ld_unit_zero (S := S5000x128) zero_offsets2, View.ld_unit_zero (S := S128x128) zero_offsets2]
  rw [payload2_eq]
  obtain ⟨-, -, -, -, e0, e1⟩ := index_facts2 t
  funext j
  rw [View.read_apply]
  show prod (Gen.iblk2 V c 0 t) (Gen.iblk2 V c 1 t) j = prod _ _ (((cfg2.win 2).blk t).view.emb j)
  refine prod_entry_congr _ _ _ _ _ _ (fun k => ?_) (fun k => ?_)
  · refine left_block2_apply V c t _ _ ?_ rfl
    show win2_2.index t 0 * 5000 + 1 * (j 0).val = 5000 * t.val + (j 0).val
    rw [e0]; omega
  · refine right_block2_apply V c t _ _ rfl ?_
    show win2_2.index t 1 * 128 + 1 * (j 1).val = (j 1).val
    rw [e1]; omega

/-- An index of the output array is in point `t`'s block iff each coordinate is in the block's range on its axis. -/
theorem mem_block2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v70).slice (win2_2.rect t)).set ↔ _
  rw [View.set_slice_whole, Rect.mem_set_unit]
  exact Iff.rfl

/-- Every row of the output array is written by some point: row `r` by point `r / 5000`. -/
theorem rows_covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 20 := Gen.N_2
  have ht : (i 0).val / 5000 < cfg2.N := by show (i 0).val / 5000 < grid2.N; rw [hN]; omega
  obtain ⟨-, -, -, -, e0, e1⟩ := index_facts2 ⟨(i 0).val / 5000, ht⟩
  refine ⟨⟨(i 0).val / 5000, ht⟩, Gen.flush2_2 _, ?_⟩
  rw [mem_block2]
  intro a
  match a with
  | ⟨0, _⟩ =>
    show win2_2.index ⟨(i 0).val / 5000, ht⟩ 0 * 5000 ≤ (i 0).val
      ∧ (i 0).val < win2_2.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_2.index ⟨(i 0).val / 5000, ht⟩ 1 * 128 ≤ (i 1).val
      ∧ (i 1).val < win2_2.index ⟨(i 0).val / 5000, ht⟩ 1 * 128 + 128
    rw [e1]; omega

/-- After region 2 its output array is the product of its two input arrays as the region found them. -/
theorem array2 (c : Dev nD) :
    (Gen.dat2 (F := Ideal) V c).arrAt 2 cfg2.N
      = prod (M := 100000) (K := 128) (N := 128) (φ₁ := .f32) (φ₂ := .f32) (V c main_v67) (V c main_v68) :=
  (Gen.dat2 V c).arrAt_eq_of_cover 2 _ (fun t _ => written2_eq V c t) rows_covered2

end Cert.KernelIdeal.RegionValue

end
-- ==== Proof.KernelResult.lean ====
/-
  The kernel program's two results as one composition.

  Each of the three regions leaves in its output array the matrix product of its two input arrays as it found them;
  chained through the boundaries this makes result 0 the left column half, and result 1 the right column half, of ONE
  output layer on 128 columns: the aggregation of `H · [W_mu | W_logstd]` with the bias `[b_mu | b_logstd]`, `H` the two
  hidden layers, every product the plain `prod`.
-/
import proofs.«100902_j1211180778233_1_alg».proof.Proof.KernelValue
import proofs.«100902_j1211180778233_1_alg».proof.Proof.RegionProduct0
import proofs.«100902_j1211180778233_1_alg».proof.Proof.RegionProduct1
import proofs.«100902_j1211180778233_1_alg».proof.Proof.RegionProduct2

set_option maxRecDepth 16384

noncomputable section

namespace Cert.KernelIdeal.KValue

open Cert.KernelIdeal Cert.KernelIdeal.Gen Cert.Gcn
open Idealize.ShloMosaic Idealize.ShloMosaic.TcCoe Idealize.SL.Sem Idealize.ShloMosaic.StableHlo Idealize.ShloMosaic.MatmulPlain

variable (m : (ℓ : Loc nD τ sig) → Buf (Elt Ideal) ℓ) (ρ : Dev nD → PrngReg)

/-- The hidden layers with every product the plain `prod`. -/
def hiddenK (e : IVec Cert.Gcn.S2x1600000 32) (x : FVec Ideal ⟨2, ![100000, 256]⟩ .f32) (W₁ : FVec Ideal ⟨2, ![256, 128]⟩ .f32) (b₁ : FVec Ideal ⟨1, ![128]⟩ .f32)
    (W₂ : FVec Ideal ⟨2, ![128, 128]⟩ .f32) (b₂ : FVec Ideal ⟨1, ![128]⟩ .f32) : FVec Ideal ⟨2, ![100000, 128]⟩ .f32 :=
  hiddenLayers hf hl128 (fun l r => prod (M := 100000) (K := 256) (N := 128) (φ₁ := .f32) (φ₂ := .f32) l r) (fun l r => prod (M := 100000) (K := 128) (N := 128) (φ₁ := .f32) (φ₂ := .f32) l r) e x W₁ b₁ W₂ b₂

/-- Region 0 leaves `x · W₁`. -/
theorem v32_at4 (c : Dev nD) : W4 m ρ c (Proc.devRef .tc main_v32) = prod (M := 100000) (K := 256) (N := 128) (φ₁ := .f32) (φ₂ := .f32) (m ((c : Thread nD τ).loc main_arg0)) (m ((c : Thread nD τ).loc main_arg2)) := by
  refine (W4_arr m ρ c 2).trans ((RegionValue.array0 (V3 m ρ) c).trans ?_)
  show prod (M := 100000) (K := 256) (N := 128) (φ₁ := .f32) (φ₂ := .f32) (W3 m ρ c (Proc.devRef .tc main_arg0)) (W3 m ρ c (Proc.devRef .tc main_arg2)) = _
  rw [carry_arg0_3, carry_arg2_3, at0, at0]

/-- The first hidden layer. -/
theorem h1_at6 (c : Dev nD) : W6 m ρ c (Proc.devRef .tc main_v49) = (relu hl128 (convLayer hf hl128 (srcOf hf (m ((c : Thread nD τ).loc main_arg1))) (dstOf hf (m ((c : Thread nD τ).loc main_arg1))) (nrmOf hf (m ((c : Thread nD τ).loc main_arg1))) (prod (M := 100000) (K := 256) (N := 128) (φ₁ := .f32) (φ₂ := .f32) (m ((c : Thread nD τ).loc main_arg0)) (m ((c : Thread nD τ).loc main_arg2))) (m ((c : Thread nD τ).loc main_arg3)))) := by
  rw [layer1_at6, carry_v3_4, carry_v6_4, carry_v31_4, src_at3, dst_at3, nrm_at3, v32_at4, carry_arg3_4, at0]

/-- Region 1 leaves `h₁ · W₂`. -/
theorem v50_at7 (c : Dev nD) : W7 m ρ c (Proc.devRef .tc main_v50) = prod (M := 100000) (K := 128) (N := 128) (φ₁ := .f32) (φ₂ := .f32) (relu hl128 (convLayer hf hl128 (srcOf hf (m ((c : Thread nD τ).loc main_arg1))) (dstOf hf (m ((c : Thread nD τ).loc main_arg1))) (nrmOf hf (m ((c : Thread nD τ).loc main_arg1))) (prod (M := 100000) (K := 256) (N := 128) (φ₁ := .f32) (φ₂ := .f32) (m ((c : Thread nD τ).loc main_arg0)) (m ((c : Thread nD τ).loc main_arg2))) (m ((c : Thread nD τ).loc main_arg3)))) (m ((c : Thread nD τ).loc main_arg4)) := by
  refine (W7_arr m ρ c 2).trans ((RegionValue.array1 (V6 m ρ) c).trans ?_)
  show prod (M := 100000) (K := 128) (N := 128) (φ₁ := .f32) (φ₂ := .f32) (W6 m ρ c (Proc.devRef .tc main_v49)) (W6 m ρ c (Proc.devRef .tc main_arg4)) = _
  rw [h1_at6, carry_arg4_6, at0]

/-- The second hidden layer. -/
theorem h2_at9 (c : Dev nD) : W9 m ρ c (Proc.devRef .tc main_v67) = (hiddenK (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) := by
  rw [layer2_at9, carry_v3_7, carry_v6_7, carry_v31_7, src_at3, dst_at3, nrm_at3, v50_at7, carry_arg5_7, at0]
  rfl

/-- Region 2 leaves `h₂ · [W_mu | W_logstd]`. -/
theorem v70_at11 (c : Dev nD) : W11 m ρ c (Proc.devRef .tc main_v70) = prod (M := 100000) (K := 128) (N := 128) (φ₁ := .f32) (φ₂ := .f32) (hiddenK (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (concatenate S128x128 1 [⟨S128x64, (m ((c : Thread nD τ).loc main_arg6))⟩, ⟨S128x64, (m ((c : Thread nD τ).loc main_arg8))⟩] Gen.concatenates_S128x64_S128x64_S128x128_d1) := by
  refine (W11_arr m ρ c 2).trans ((RegionValue.array2 (V10 m ρ) c).trans ?_)
  show prod (M := 100000) (K := 128) (N := 128) (φ₁ := .f32) (φ₂ := .f32) (W10 m ρ c (Proc.devRef .tc main_v67)) (W10 m ρ c (Proc.devRef .tc main_v68)) = _
  rw [carry_v67_10, h2_at9, wcomb_at10, carry_arg6_9, carry_arg8_9, at0, at0]

/-- The joined bias at the last region's exit. -/
theorem v69_at11 (c : Dev nD) : W11 m ρ c (Proc.devRef .tc main_v69) = (concatenate S128 0 [⟨S64, (m ((c : Thread nD τ).loc main_arg7))⟩, ⟨S64, (m ((c : Thread nD τ).loc main_arg9))⟩] Gen.concatenates_S64_S64_S128_d0) := by
  rw [carry_v69_11, bcomb_at10, carry_arg7_9, carry_arg9_9, at0, at0]

/-- Result 0: the left column half of the output layer on 128 columns. -/
theorem out0_eq (c : Dev nD) : W12 m ρ c (Proc.devRef .tc main_v87)
    = extractStridedSlice S100000x64 ![0, 0] (convLayer hf hl128 (srcOf hf (m ((c : Thread nD τ).loc main_arg1))) (dstOf hf (m ((c : Thread nD τ).loc main_arg1))) (nrmOf hf (m ((c : Thread nD τ).loc main_arg1))) (prod (M := 100000) (K := 128) (N := 128) (φ₁ := .f32) (φ₂ := .f32) (hiddenK (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (concatenate S128x128 1 [⟨S128x64, (m ((c : Thread nD τ).loc main_arg6))⟩, ⟨S128x64, (m ((c : Thread nD τ).loc main_arg8))⟩] Gen.concatenates_S128x64_S128x64_S128x128_d1)) (concatenate S128 0 [⟨S64, (m ((c : Thread nD τ).loc main_arg7))⟩, ⟨S64, (m ((c : Thread nD τ).loc main_arg9))⟩] Gen.concatenates_S64_S64_S128_d0)) Gen.slices_S100000x128_S100000x64_0_0 := by
  rw [out0_at12, carry_v3_11, carry_v6_11, carry_v31_11, src_at3, dst_at3, nrm_at3, v70_at11, v69_at11]

/-- Result 1: its right column half. -/
theorem out1_eq (c : Dev nD) : W12 m ρ c (Proc.devRef .tc main_v88)
    = extractStridedSlice S100000x64 ![0, 64] (convLayer hf hl128 (srcOf hf (m ((c : Thread nD τ).loc main_arg1))) (dstOf hf (m ((c : Thread nD τ).loc main_arg1))) (nrmOf hf (m ((c : Thread nD τ).loc main_arg1))) (prod (M := 100000) (K := 128) (N := 128) (φ₁ := .f32) (φ₂ := .f32) (hiddenK (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (concatenate S128x128 1 [⟨S128x64, (m ((c : Thread nD τ).loc main_arg6))⟩, ⟨S128x64, (m ((c : Thread nD τ).loc main_arg8))⟩] Gen.concatenates_S128x64_S128x64_S128x128_d1)) (concatenate S128 0 [⟨S64, (m ((c : Thread nD τ).loc main_arg7))⟩, ⟨S64, (m ((c : Thread nD τ).loc main_arg9))⟩] Gen.concatenates_S64_S64_S128_d0)) Gen.slices_S100000x128_S100000x64_0_64 := by
  rw [out1_at12, carry_v3_11, carry_v6_11, carry_v31_11, src_at3, dst_at3, nrm_at3, v70_at11, v69_at11]

end Cert.KernelIdeal.KValue

end
-- ==== Proof.RefValue.lean ====
/-
  The reference's two results are the encoder's composition.

  The reference's run states each result as one composed term of the argument arrays.  Read against the vocabulary of
  a graph-convolution encoder, result 0 is the output layer on 64 columns with the weights `W_mu`, `b_mu` over the
  two hidden layers, and result 1 the same with `W_logstd`, `b_logstd`; every matrix product is the host's
  `dot_general`.  The two sides differ only in how they name the shape facts they cite.
-/
import proofs.«100902_j1211180778233_1_alg».proof.Proof.RunPatched
import proofs.«100902_j1211180778233_1_alg».proof.Proof.GcnSpec

set_option maxRecDepth 16384

noncomputable section

namespace Cert.ReferenceIdeal.RefValue

open Cert.ReferenceIdeal Cert.Gcn Idealize.ShloMosaic Idealize.ShloMosaic.TcCoe Idealize.SL.Sem

/-- The reference's own proofs of the index vectors' shape facts. -/
theorem hf : IndexFacts :=
  ⟨Gen.slices_S2x1600000_S1x1600000_0_0, Gen.slices_S2x1600000_S1x1600000_1_0, Gen.shapeCasts_S1x1600000_S1600000,
   Gen.concatenates_S1600000_S100000_S1700000_d0, Gen.bcast_S_S1700000, Gen.bcast_S_S100000, Gen.bcast_S1700000_S1700000x1_0,
   Gen.scatter_S100000_S1700000x1_S1700000_n_0_0_1_wf, Gen.gather_S100000_S1700000x1_S1700000_n_0_n_n_0_1_1_wf⟩

/-- … of a layer's on 128 columns. -/
theorem hl128 : LayerFacts 128 :=
  ⟨Gen.bcast_S1700000x1_S1700000x128_0_1, Gen.bcast_S_S100000x128, Gen.bcast_S128_S1x128_1, Gen.bcast_S1x128_S100000x128_0_1,
   Gen.gather_S100000x128_S1700000x1_S1700000x128_1_0_n_n_0_1_1128_wf, Gen.scatter_S100000x128_S1700000x1_S1700000x128_1_0_0_1_wf⟩

/-- … and on 64 columns. -/
theorem hl64 : LayerFacts 64 :=
  ⟨Gen.bcast_S1700000x1_S1700000x64_0_1, Gen.bcast_S_S100000x64, Gen.bcast_S64_S1x64_1, Gen.bcast_S1x64_S100000x64_0_1,
   Gen.gather_S100000x64_S1700000x1_S1700000x64_1_0_n_n_0_1_164_wf, Gen.scatter_S100000x64_S1700000x1_S1700000x64_1_0_0_1_wf⟩

variable {F : FTy → Type} [FloatOps F]

/-- The reference's hidden layers, its products the host's `dot_general`. -/
def hiddenR (e : IVec S2x1600000 32) (x : FVec F ⟨2, ![100000, 256]⟩ .f32) (W₁ : FVec F ⟨2, ![256, 128]⟩ .f32) (b₁ : FVec F ⟨1, ![128]⟩ .f32)
    (W₂ : FVec F ⟨2, ![128, 128]⟩ .f32) (b₂ : FVec F ⟨1, ![128]⟩ .f32) : FVec F ⟨2, ![100000, 128]⟩ .f32 :=
  hiddenLayers hf hl128 (fun l r => Host.dotGeneral dot_S100000x256_S256x128_S100000x128_1_0_0_1_n_n none l r)
    (fun l r => Host.dotGeneral dot_S100000x128_S128x128_S100000x128_1_0_0_1_n_n none l r) e x W₁ b₁ W₂ b₂

/-- The reference's output layer on 64 columns with weights `W`, `b`. -/
def headR (e : IVec S2x1600000 32) (H : FVec F ⟨2, ![100000, 128]⟩ .f32) (W : FVec F ⟨2, ![128, 64]⟩ .f32) (b : FVec F ⟨1, ![64]⟩ .f32) :
    FVec F ⟨2, ![100000, 64]⟩ .f32 :=
  convLayer hf hl64 (srcOf hf e) (dstOf hf e) (nrmOf hf e) (Host.dotGeneral dot_S100000x128_S128x64_S100000x64_1_0_0_1_n_n none H W) b

set_option maxHeartbeats 4000000 in
/-- Result 0: the output layer with `W_mu`, `b_mu`. -/
theorem res0_eq (m : (ℓ : Loc nD τ sig) → Buf (Elt F) ℓ) (c : Dev nD) :
    ValueP.res_main_v84 (F := F) m c
      = headR (m ((c.tc : Thread nD τ).loc main_arg1))
          (hiddenR (m ((c.tc : Thread nD τ).loc main_arg1)) (m ((c.tc : Thread nD τ).loc main_arg0)) (m ((c.tc : Thread nD τ).loc main_arg2))
            (m ((c.tc : Thread nD τ).loc main_arg3)) (m ((c.tc : Thread nD τ).loc main_arg4)) (m ((c.tc : Thread nD τ).loc main_arg5)))
          (m ((c.tc : Thread nD τ).loc main_arg6)) (m ((c.tc : Thread nD τ).loc main_arg7)) := by
  unfold ValueP.res_main_v84 headR hiddenR hiddenLayers relu convLayer nrmOf disOf degOf wrap srcOf dstOf
  rfl

set_option maxHeartbeats 4000000 in
/-- Result 1: the output layer with `W_logstd`, `b_logstd`. -/
theorem res1_eq (m : (ℓ : Loc nD τ sig) → Buf (Elt F) ℓ) (c : Dev nD) :
    ValueP.res_main_v101 (F := F) m c
      = headR (m ((c.tc : Thread nD τ).loc main_arg1))
          (hiddenR (m ((c.tc : Thread nD τ).loc main_arg1)) (m ((c.tc : Thread nD τ).loc main_arg0)) (m ((c.tc : Thread nD τ).loc main_arg2))
            (m ((c.tc : Thread nD τ).loc main_arg3)) (m ((c.tc : Thread nD τ).loc main_arg4)) (m ((c.tc : Thread nD τ).loc main_arg5)))
          (m ((c.tc : Thread nD τ).loc main_arg8)) (m ((c.tc : Thread nD τ).loc main_arg9)) := by
  unfold ValueP.res_main_v101 headR hiddenR hiddenLayers relu convLayer nrmOf disOf degOf wrap srcOf dstOf
  rfl

end Cert.ReferenceIdeal.RefValue

end
-- ==== Proof.RefProd.lean ====
/-
  The reference's layers with every `dot_general` read as the plain product.

  The host's `dot_general` with the dimension numbers of `p @ v` is the plain matrix product `prod` of its operands, as a
  function of whole arrays.  So the reference's hidden layers are the encoder's hidden layers over `prod`, and its
  output layer with weights `W`, `b` is the aggregation of `H · W` with the bias `b`.
-/
import proofs.«100902_j1211180778233_1_alg».proof.Proof.RefValue
import proofs.«100902_j1211180778233_1_alg».proof.Proof.LibProdEntries

set_option maxRecDepth 16384

noncomputable section

namespace Cert.ReferenceIdeal.RefValue

open Cert.ReferenceIdeal Cert.Gcn Idealize.ShloMosaic Idealize.ShloMosaic.TcCoe Idealize.SL.Sem Idealize.ShloMosaic.MatmulPlain

/-- The first layer's `dot_general` is the product. -/
theorem dot256_eq : (fun (l : FVec Ideal ⟨2, ![100000, 256]⟩ .f32) (r : FVec Ideal ⟨2, ![256, 128]⟩ .f32) =>
      Host.dotGeneral (F := Ideal) dot_S100000x256_S256x128_S100000x128_1_0_0_1_n_n none l r)
    = fun l r => prod (M := 100000) (K := 256) (N := 128) (φ₁ := .f32) (φ₂ := .f32) l r := by
  funext l r
  exact dotGeneral_eq_prod (D := dot_S100000x256_S256x128_S100000x128_1_0_0_1_n_n) ⟨rfl, rfl, rfl, rfl, rfl, rfl⟩ none .single l r

/-- The second layer's. -/
theorem dot128_eq : (fun (l : FVec Ideal ⟨2, ![100000, 128]⟩ .f32) (r : FVec Ideal ⟨2, ![128, 128]⟩ .f32) =>
      Host.dotGeneral (F := Ideal) dot_S100000x128_S128x128_S100000x128_1_0_0_1_n_n none l r)
    = fun l r => prod (M := 100000) (K := 128) (N := 128) (φ₁ := .f32) (φ₂ := .f32) l r := by
  funext l r
  exact dotGeneral_eq_prod (D := dot_S100000x128_S128x128_S100000x128_1_0_0_1_n_n) ⟨rfl, rfl, rfl, rfl, rfl, rfl⟩ none .single l r

/-- The output layers'. -/
theorem dot64_eq (l : FVec Ideal ⟨2, ![100000, 128]⟩ .f32) (r : FVec Ideal ⟨2, ![128, 64]⟩ .f32) :
    Host.dotGeneral (F := Ideal) dot_S100000x128_S128x64_S100000x64_1_0_0_1_n_n none l r
      = prod (M := 100000) (K := 128) (N := 64) (φ₁ := .f32) (φ₂ := .f32) l r :=
  dotGeneral_eq_prod (D := dot_S100000x128_S128x64_S100000x64_1_0_0_1_n_n) ⟨rfl, rfl, rfl, rfl, rfl, rfl⟩ none .single l r

/-- The reference's hidden layers are the encoder's over `prod`. -/
theorem hiddenR_eq (e : IVec S2x1600000 32) (x : FVec Ideal ⟨2, ![100000, 256]⟩ .f32) (W₁ : FVec Ideal ⟨2, ![256, 128]⟩ .f32) (b₁ : FVec Ideal ⟨1, ![128]⟩ .f32)
    (W₂ : FVec Ideal ⟨2, ![128, 128]⟩ .f32) (b₂ : FVec Ideal ⟨1, ![128]⟩ .f32) :
    hiddenR (F := Ideal) e x W₁ b₁ W₂ b₂
      = hiddenLayers hf hl128 (fun l r => prod (M := 100000) (K := 256) (N := 128) (φ₁ := .f32) (φ₂ := .f32) l r)
          (fun l r => prod (M := 100000) (K := 128) (N := 128) (φ₁ := .f32) (φ₂ := .f32) l r) e x W₁ b₁ W₂ b₂ := by
  unfold hiddenR
  rw [dot256_eq, dot128_eq]

/-- The reference's output layer is the aggregation of `H · W`. -/
theorem headR_eq (e : IVec S2x1600000 32) (H : FVec Ideal ⟨2, ![100000, 128]⟩ .f32) (W : FVec Ideal ⟨2, ![128, 64]⟩ .f32) (b : FVec Ideal ⟨1, ![64]⟩ .f32) :
    headR (F := Ideal) e H W b
      = convLayer hf hl64 (srcOf hf e) (dstOf hf e) (nrmOf hf e) (prod (M := 100000) (K := 128) (N := 64) (φ₁ := .f32) (φ₂ := .f32) H W) b := by
  unfold headR
  rw [dot64_eq]

end Cert.ReferenceIdeal.RefValue

end
-- ==== Proof.LibRowGatherScatter.lean ====
/-
  A gather of whole rows and a scatter-add of whole rows, read at one entry.

  For an operand `h : [N, W]` and start indices `src : [E, 1]`, gathering rows gives `msg[e, c] = h[src[e], c]`, the start
  index read as a signed integer and clamped into `[0, N − 1]`.  For updates `upd : [E, W]` and scatter indices
  `dst : [E, 1]`, scatter-adding rows into `x : [N, W]` gives `out[r, c] = x[r, c] + ∑ over the e with dst[e] = r of upd[e, c]`,
  the scatter index read as a signed integer and NOT clamped: an update whose row is outside `[0, N)` is dropped.
  The extents `N`, `E`, `W` are arbitrary.
-/
import Idealize.ShloMosaic.PureOps.Ideal
import Idealize.ShloMosaic.PureOps.Ideal.Laws
import Idealize.ShloMosaic.Lib.ValueIdx
import proofs.«100902_j1211180778233_1_alg».proof.Proof.LibRowDims

noncomputable section

namespace Idealize.ShloMosaic.RowIndexing

open Idealize.ShloMosaic Idealize.ShloMosaic.ValueIdx
open scoped BigOperators

/-! ## Scatter-add of rows -/

section Scatter
variable {N E W w : Nat} (wf : ScatterDims.WF ⟨2, ![N, W]⟩ ⟨2, ![E, 1]⟩ ⟨2, ![E, W]⟩ [1] [0] [0] 1)
  (idx : IVec ⟨2, ![E, 1]⟩ w) (e : Fin E) (c : Fin W)

/-- On the row axis the window of update `(e, c)` starts at the scatter index `idx[e, 0]`, read signed. -/
theorem rowScatter_start0 :
    (rowScatterDims N E W wf).start (ix2 e c) idx 0 = (idx (ix2 e 0)).toInt := by
  unfold ScatterDims.start
  rw [dif_pos (show (0 : Fin 2) ∈ (rowScatterDims N E W wf).scatterDimsToOperandDims from List.mem_singleton.mpr rfl)]
  have hsi : (rowScatterDims N E W wf).siIdx (ix2 e c) ⟨List.idxOf (0 : Fin 2) (rowScatterDims N E W wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`. -/
theorem rowScatter_start1 : (rowScatterDims N E W wf).start (ix2 e c) idx 1 = 0 := by
  unfold ScatterDims.start
  rw [dif_neg (show ¬ (1 : Fin 2) ∈ (rowScatterDims N E W wf).scatterDimsToOperandDims from
    (by decide : ¬ (1 : Fin 2) ∈ [(0 : Fin 2)]))]

/-- The row axis is inserted: no window coordinate. -/
theorem rowScatter_window0 : (rowScatterDims N E W wf).window (ix2 e c) 0 = 0 := by
  unfold ScatterDims.window
  rw [dif_neg (show ¬ (0 : Fin 2) ∈ (rowScatterDims N E W wf).sKept from
    (by decide : ¬ (0 : Fin 2) ∈ (List.finRange 2).filter (fun a => a ∉ [(0 : Fin 2)])))]

/-- The column axis carries the update's column. -/
theorem rowScatter_window1 : (rowScatterDims N E W wf).window (ix2 e c) 1 = c.val := by
  unfold ScatterDims.window
  rw [dif_pos (show (1 : Fin 2) ∈ (rowScatterDims N E W wf).sKept from
    (by decide : (1 : Fin 2) ∈ (List.finRange 2).filter (fun a => a ∉ [(0 : Fin 2)])))]
  rfl

/-- Update `(e, c)` lands at entry `(r, q)` exactly when its scatter index, read signed, is `r` and its column is `q`
    (a row outside `[0, N)` lands nowhere). -/
theorem rowScatter_resultIdx?_eq_some_iff (r : Fin N) (q : Fin W) :
    (rowScatterDims N E W wf).resultIdx? (ix2 e c) idx = some (ix2 r q) ↔
      (idx (ix2 e 0)).toInt = (r.val : Int) ∧ c = q := by
  have hr : r.val < N := r.isLt
  have hc : c.val < W := c.isLt
  unfold ScatterDims.resultIdx?
  split
  · rename_i h
    rw [Option.some.injEq]
    constructor
    · intro hf
      have h0 := congrArg Fin.val (congrFun hf 0)
      have h1 := congrArg Fin.val (congrFun hf 1)
      have g0 := (h 0).1
      simp only [rowScatter_start0, rowScatter_start1, rowScatter_window0, rowScatter_window1] at h0 h1 g0
      refine ⟨?_, Fin.ext ?_⟩
      · change ((idx (ix2 e 0)).toInt + ((0 : Nat) : Int)).toNat = r.val at h0
        omega
      · change (0 + (c.val : Int)).toNat = q.val at h1
        omega
    · rintro ⟨h0, rfl⟩
      funext a; refine Fin.ext ?_
      match a with
      | ⟨0, _⟩ =>
        show ((rowScatterDims N E W wf).start (ix2 e c) idx 0 + ((rowScatterDims N E W wf).window (ix2 e c) 0 : Nat)).toNat = r.val
        rw [rowScatter_start0, rowScatter_window0, h0]; omega
      | ⟨1, _⟩ =>
        show ((rowScatterDims N E W wf).start (ix2 e c) idx 1 + ((rowScatterDims N E W wf).window (ix2 e c) 1 : Nat)).toNat = c.val
        rw [rowScatter_start1, rowScatter_window1]; omega
  · rename_i h
    constructor
    · intro hf; exact absurd hf (by simp)
    · rintro ⟨h0, rfl⟩
      exfalso; apply h
      intro a
      match a with
      | ⟨0, _⟩ =>
        show 0 ≤ (rowScatterDims N E W wf).start (ix2 e c) idx 0 + ((rowScatterDims N E W wf).window (ix2 e c) 0 : Nat) ∧
          (rowScatterDims N E W wf).start (ix2 e c) idx 0 + ((rowScatterDims N E W wf).window (ix2 e c) 0 : Nat) < (N : Int)
        rw [rowScatter_start0, rowScatter_window0, h0]; omega
      | ⟨1, _⟩ =>
        show 0 ≤ (rowScatterDims N E W wf).start (ix2 e c) idx 1 + ((rowScatterDims N E W wf).window (ix2 e c) 1 : Nat) ∧
          (rowScatterDims N E W wf).start (ix2 e c) idx 1 + ((rowScatterDims N E W wf).window (ix2 e c) 1 : Nat) < (W : Int)
        rw [rowScatter_start1, rowScatter_window1]; omega

end Scatter

/-- THE SCATTER-ADD OF ROWS READ AT `(r, q)`: the operand's entry plus the sum, over the updates `e` whose scatter index
    (read signed, not clamped) is `r`, of `upd[e, q]`. -/
theorem rowScatterAdd_apply {N E W w : Nat}
    (wf : ScatterDims.WF ⟨2, ![N, W]⟩ ⟨2, ![E, 1]⟩ ⟨2, ![E, W]⟩ [1] [0] [0] 1) {φ : FTy}
    (x : FVec Ideal ⟨2, ![N, W]⟩ φ) (idx : IVec ⟨2, ![E, 1]⟩ w) (upd : FVec Ideal ⟨2, ![E, W]⟩ φ)
    (r : Fin N) (q : Fin W) :
    Host.scatterAdd (F := Ideal) (rowScatterDims N E W wf) x idx upd (ix2 r q) =
      x (ix2 r q) + ∑ e : Fin E, if (idx (ix2 e 0)).toInt = (r.val : Int) then upd (ix2 e q) else 0 := by
  show x (ix2 r q) + ∑ j ∈ Finset.univ.filter
      (fun j => (rowScatterDims N E W wf).resultIdx? j idx = some (ix2 r q)), upd j = _
  congr 1
  rw [Finset.sum_filter, sum_idx2]
  refine Finset.sum_congr rfl fun e _ => ?_
  by_cases he : (idx (ix2 e 0)).toInt = (r.val : Int)
  · rw [if_pos he]
    refine (Finset.sum_congr rfl fun c _ => ?_).trans
      ((Finset.sum_ite_eq' Finset.univ q (fun c => upd (ix2 e c))).trans (if_pos (Finset.mem_univ q)))
    by_cases hcq : c = q
    · rw [if_pos hcq, if_pos ((rowScatter_resultIdx?_eq_some_iff wf idx e c r q).2 ⟨he, hcq⟩)]
    · rw [if_neg hcq, if_neg fun h => hcq ((rowScatter_resultIdx?_eq_some_iff wf idx e c r q).1 h).2]
  · rw [if_neg he]
    refine Finset.sum_eq_zero fun c _ => ?_
    rw [if_neg]
    intro h
    exact he ((rowScatter_resultIdx?_eq_some_iff wf idx e c r q).1 h).1

/-! ## Gather of rows -/

/-- THE GATHER OF ROWS READ AT `(e, q)`: the operand at row `idx[e, 0]`, read signed and clamped into `[0, N − 1]`,
    and column `q`. -/
theorem rowGather_apply {α : Type} {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (q : Fin W) :
    Host.gather (rowGatherDims N E W wf) x idx (ix2 e q) = x (ix2 (clampRow hN idx e) q) := by
  unfold Host.gather
  congr 1
  funext a
  refine Fin.ext ?_
  match a with
  | ⟨0, _⟩ =>
    show (rowGatherDims N E W wf).start (ix2 e q) idx 0 + (rowGatherDims N E W wf).batchCoord (ix2 e q) 0 +
      (rowGatherDims N E W wf).offCoord (ix2 e q) 0 = (clampRow hN idx e).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E W wf).startIndexMap from List.mem_singleton.mpr rfl)]
    have hsi : (rowGatherDims N E W wf).siIdx (ix2 e q) ⟨List.idxOf (0 : Fin 2) (rowGatherDims N E W wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E W wf).start (ix2 e q) idx 1 + (rowGatherDims N E W wf).batchCoord (ix2 e q) 1 +
      (rowGatherDims N E W wf).offCoord (ix2 e q) 1 = q.val
    rw [GatherDims.batchCoord_eq_zero _ _ _ List.not_mem_nil]
    have hs : (rowGatherDims N E W wf).start (ix2 e q) idx 1 = 0 := by
      unfold GatherDims.start
      rw [dif_neg (show ¬ (1 : Fin 2) ∈ (rowGatherDims N E W wf).startIndexMap from
        (by decide : ¬ (1 : Fin 2) ∈ [(0 : Fin 2)]))]
    have ho : (rowGatherDims N E W wf).offCoord (ix2 e q) 1 = q.val := by
      unfold GatherDims.offCoord
      rw [dif_pos (show (1 : Fin 2) ∈ (rowGatherDims N E W wf).sKept from
        (by decide : (1 : Fin 2) ∈ (List.finRange 2).filter (fun a => a ∉ [(0 : Fin 2)] ++ [])))]
      rfl
    rw [hs, ho]; omega

end Idealize.ShloMosaic.RowIndexing

end
-- ==== Proof.LibColumnLayout.lean ====
/-
  Column layout read at one entry.

  Two matrices with the same rows laid side by side form one wider matrix; two vectors laid end to end form one longer
  vector; a block of columns cut out of a matrix is the matrix read at shifted columns; a vector repeated down the rows
  (a bias) or across the columns (a per-row scale) reads the vector at the one coordinate it depends on; a scalar
  repeated over any shape reads the scalar. Each lemma states one of these facts at a single entry, for arbitrary
  extents, so that a product against the side-by-side matrix can be compared column by column with the two separate
  products.
-/
import Idealize.ShloMosaic.PureOps.Ideal
import Idealize.ShloMosaic.Lib.ValueIdx
import Idealize.ShloMosaic.Lib.Pipeline.Value
import Idealize.ShloMosaic.Lib.ValueLayout

namespace Idealize.ShloMosaic.ColumnLayout

open Idealize.ShloMosaic Idealize.ShloMosaic.ValueIdx

variable {α : Type}

/-! ## A block of columns -/

/-- The block of `w'` columns of an `n × w` matrix `x` that starts at column `off`, read at row `r` and column `q`, is
    `x` at row `r` and column `off + q`. -/
theorem colSlice_apply {n w w' : Nat} (off : Nat) (x : (⟨2, ![n, w]⟩ : Shape).Idx → α)
    (h : (⟨2, ![n, w]⟩ : Shape).Slices ![0, off] ⟨2, ![n, w']⟩) (r : Fin n) (q : Fin w') (hq : off + q.val < w) :
    extractStridedSlice ⟨2, ![n, w']⟩ ![0, off] x h (ix2 r q) = x (ix2 r ⟨off + q.val, hq⟩) :=
  slice2_axis1_apply off x h r q ⟨off + q.val, hq⟩ rfl

/-! ## Two matrices side by side -/

/-- Two matrices `a` (`k × wa`) and `b` (`k × wb`) laid side by side: at row `p` and a column `q` below `wa`, the
    combined matrix reads `a` at `(p, q)`. -/
theorem concatCols_apply_left {k wa wb wc : Nat} (a : (⟨2, ![k, wa]⟩ : Shape).Idx → α)
    (b : (⟨2, ![k, wb]⟩ : Shape).Idx → α)
    (h : Shape.Concatenates [⟨2, ![k, wa]⟩, ⟨2, ![k, wb]⟩] ⟨2, ![k, wc]⟩ 1) (p : Fin k) (q : Fin wa)
    (hq : q.val < wc) :
    concatenate ⟨2, ![k, wc]⟩ 1 [⟨⟨2, ![k, wa]⟩, a⟩, ⟨⟨2, ![k, wb]⟩, b⟩] h (ix2 p ⟨q.val, hq⟩) = a (ix2 p q) :=
  concatenate_pair_apply_left (t := ⟨2, ![k, wc]⟩) 1 a b h (ix2 p ⟨q.val, hq⟩) rfl (ix2 p q) (fun ax => by
    match ax with
    | ⟨0, _⟩ => rfl
    | ⟨1, _⟩ => rfl)

/-- Two matrices `a` (`k × wa`) and `b` (`k × wb`) laid side by side: at row `p` and column `wa + q`, the combined
    matrix reads `b` at `(p, q)`. -/
theorem concatCols_apply_right {k wa wb wc : Nat} (a : (⟨2, ![k, wa]⟩ : Shape).Idx → α)
    (b : (⟨2, ![k, wb]⟩ : Shape).Idx → α)
    (h : Shape.Concatenates [⟨2, ![k, wa]⟩, ⟨2, ![k, wb]⟩] ⟨2, ![k, wc]⟩ 1) (p : Fin k) (q : Fin wb)
    (hq : wa + q.val < wc) :
    concatenate ⟨2, ![k, wc]⟩ 1 [⟨⟨2, ![k, wa]⟩, a⟩, ⟨⟨2, ![k, wb]⟩, b⟩] h (ix2 p ⟨wa + q.val, hq⟩) = b (ix2 p q) :=
  concatenate_pair_apply_right (t := ⟨2, ![k, wc]⟩) 1 a b h (ix2 p ⟨wa + q.val, hq⟩) rfl rfl (ix2 p q)
    (fun ax hax => by
      match ax, hax with
      | ⟨0, _⟩, _ => rfl
      | ⟨1, _⟩, hax => exact absurd rfl hax)
    (Nat.add_comm q.val wa)

/-! ## Two vectors end to end -/

/-- Two vectors `u` (length `a`) and `v` (length `b`) laid end to end: at a position `q` below `a`, the combined
    vector reads `u` at `q`. -/
theorem concatVec_apply_left {a b c : Nat} (u : (⟨1, ![a]⟩ : Shape).Idx → α) (v : (⟨1, ![b]⟩ : Shape).Idx → α)
    (h : Shape.Concatenates [⟨1, ![a]⟩, ⟨1, ![b]⟩] ⟨1, ![c]⟩ 0) (q : Fin a) (hq : q.val < c) :
    concatenate ⟨1, ![c]⟩ 0 [⟨⟨1, ![a]⟩, u⟩, ⟨⟨1, ![b]⟩, v⟩] h (ix1 ⟨q.val, hq⟩) = u (ix1 q) :=
  concatenate_pair_apply_left (t := ⟨1, ![c]⟩) 0 u v h (ix1 ⟨q.val, hq⟩) rfl (ix1 q) (fun ax => by
    match ax with
    | ⟨0, _⟩ => rfl)

/-- Two vectors `u` (length `a`) and `v` (length `b`) laid end to end: at position `a + q`, the combined vector
    reads `v` at `q`. -/
theorem concatVec_apply_right {a b c : Nat} (u : (⟨1, ![a]⟩ : Shape).Idx → α) (v : (⟨1, ![b]⟩ : Shape).Idx → α)
    (h : Shape.Concatenates [⟨1, ![a]⟩, ⟨1, ![b]⟩] ⟨1, ![c]⟩ 0) (q : Fin b) (hq : a + q.val < c) :
    concatenate ⟨1, ![c]⟩ 0 [⟨⟨1, ![a]⟩, u⟩, ⟨⟨1, ![b]⟩, v⟩] h (ix1 ⟨a + q.val, hq⟩) = v (ix1 q) :=
  concatenate_pair_apply_right (t := ⟨1, ![c]⟩) 0 u v h (ix1 ⟨a + q.val, hq⟩) rfl rfl (ix1 q)
    (fun ax hax => by
      match ax, hax with
      | ⟨0, _⟩, hax => exact absurd rfl hax)
    (Nat.add_comm q.val a)

/-! ## The same, at any column or position of the combined array -/

/-- Two matrices side by side, read at row `p` and any column `c` of the combined matrix that lies below `wa`: the
    entry of `a` at `(p, c)`. -/
theorem concatCols_apply_of_lt {k wa wb wc : Nat} (a : (⟨2, ![k, wa]⟩ : Shape).Idx → α)
    (b : (⟨2, ![k, wb]⟩ : Shape).Idx → α)
    (h : Shape.Concatenates [⟨2, ![k, wa]⟩, ⟨2, ![k, wb]⟩] ⟨2, ![k, wc]⟩ 1) (p : Fin k) (c : Fin wc)
    (hc : c.val < wa) :
    concatenate ⟨2, ![k, wc]⟩ 1 [⟨⟨2, ![k, wa]⟩, a⟩, ⟨⟨2, ![k, wb]⟩, b⟩] h (ix2 p c) = a (ix2 p ⟨c.val, hc⟩) :=
  concatCols_apply_left a b h p ⟨c.val, hc⟩ c.isLt

/-- Two matrices side by side, read at row `p` and any column `c` of the combined matrix at or past `wa`: the entry
    of `b` at `(p, c - wa)`. -/
theorem concatCols_apply_of_le {k wa wb wc : Nat} (a : (⟨2, ![k, wa]⟩ : Shape).Idx → α)
    (b : (⟨2, ![k, wb]⟩ : Shape).Idx → α)
    (h : Shape.Concatenates [⟨2, ![k, wa]⟩, ⟨2, ![k, wb]⟩] ⟨2, ![k, wc]⟩ 1) (p : Fin k) (c : Fin wc)
    (hc : wa ≤ c.val) (hc' : c.val - wa < wb) :
    concatenate ⟨2, ![k, wc]⟩ 1 [⟨⟨2, ![k, wa]⟩, a⟩, ⟨⟨2, ![k, wb]⟩, b⟩] h (ix2 p c)
      = b (ix2 p ⟨c.val - wa, hc'⟩) := by
  have e : c = ⟨wa + (c.val - wa), by have := c.isLt; omega⟩ := Fin.ext (by show c.val = wa + (c.val - wa); omega)
  exact (congrArg (fun c' => concatenate ⟨2, ![k, wc]⟩ 1 [⟨⟨2, ![k, wa]⟩, a⟩, ⟨⟨2, ![k, wb]⟩, b⟩] h (ix2 p c')) e).trans
    (concatCols_apply_right a b h p ⟨c.val - wa, hc'⟩ _)

/-- Two vectors end to end, read at any position `c` of the combined vector that lies below `a`: `u` at `c`. -/
theorem concatVec_apply_of_lt {a b c : Nat} (u : (⟨1, ![a]⟩ : Shape).Idx → α) (v : (⟨1, ![b]⟩ : Shape).Idx → α)
    (h : Shape.Concatenates [⟨1, ![a]⟩, ⟨1, ![b]⟩] ⟨1, ![c]⟩ 0) (i : Fin c) (hi : i.val < a) :
    concatenate ⟨1, ![c]⟩ 0 [⟨⟨1, ![a]⟩, u⟩, ⟨⟨1, ![b]⟩, v⟩] h (ix1 i) = u (ix1 ⟨i.val, hi⟩) :=
  concatVec_apply_left u v h ⟨i.val, hi⟩ i.isLt

/-- Two vectors end to end, read at any position `c` of the combined vector at or past `a`: `v` at `c - a`. -/
theorem concatVec_apply_of_le {a b c : Nat} (u : (⟨1, ![a]⟩ : Shape).Idx → α) (v : (⟨1, ![b]⟩ : Shape).Idx → α)
    (h : Shape.Concatenates [⟨1, ![a]⟩, ⟨1, ![b]⟩] ⟨1, ![c]⟩ 0) (i : Fin c) (hi : a ≤ i.val) (hi' : i.val - a < b) :
    concatenate ⟨1, ![c]⟩ 0 [⟨⟨1, ![a]⟩, u⟩, ⟨⟨1, ![b]⟩, v⟩] h (ix1 i) = v (ix1 ⟨i.val - a, hi'⟩) := by
  have e : i = ⟨a + (i.val - a), by have := i.isLt; omega⟩ := Fin.ext (by show i.val = a + (i.val - a); omega)
  exact (congrArg (fun i' => concatenate ⟨1, ![c]⟩ 0 [⟨⟨1, ![a]⟩, u⟩, ⟨⟨1, ![b]⟩, v⟩] h (ix1 i')) e).trans
    (concatVec_apply_right u v h ⟨i.val - a, hi'⟩ _)

/-! ## A vector repeated down the rows or across the columns; a scalar repeated everywhere -/

/-- A position in a range of length `w` is `0` when `w = 1`: the rule by which a repeated axis of length one is read. -/
private theorem val_eq_ite {w : Nat} (q : Fin w) : q.val = if w = 1 then 0 else q.val := by
  split
  · have := q.isLt; omega
  · rfl

/-- A vector `v` of length `w` written as one row and then repeated down `n` rows (a bias added to every row): at row
    `r` and column `q` it reads `v` at `q`. -/
theorem rowBias_apply {n w : Nat} (v : (⟨1, ![w]⟩ : Shape).Idx → α)
    (h1 : (⟨1, ![w]⟩ : Shape).BroadcastsInDim ⟨2, ![1, w]⟩ (![1] : Fin 1 → Fin 2))
    (h2 : (⟨2, ![1, w]⟩ : Shape).BroadcastsInDim ⟨2, ![n, w]⟩ (![0, 1] : Fin 2 → Fin 2)) (r : Fin n) (q : Fin w) :
    broadcastInDim ⟨2, ![n, w]⟩ ![0, 1] h2 (broadcastInDim ⟨2, ![1, w]⟩ ![1] h1 v) (ix2 r q) = v (ix1 q) := by
  refine (broadcastInDim_apply _ h2 _ (ix2 r q) (ix2 0 q) (fun ax => ?_)).trans
    (broadcastInDim_apply _ h1 v (ix2 0 q) (ix1 q) (fun ax => ?_))
  · match ax with
    | ⟨0, _⟩ => exact (if_pos rfl).symm
    | ⟨1, _⟩ => exact val_eq_ite q
  · match ax with
    | ⟨0, _⟩ => exact val_eq_ite q

/-- A vector `s` of length `e` written as a column of height `e`: at row `i` of that single column it reads `s` at
    `i`. -/
theorem colOf_apply {e : Nat} (s : (⟨1, ![e]⟩ : Shape).Idx → α)
    (h1 : (⟨1, ![e]⟩ : Shape).BroadcastsInDim ⟨2, ![e, 1]⟩ (![0] : Fin 1 → Fin 2)) (i : Fin e) :
    broadcastInDim ⟨2, ![e, 1]⟩ ![0] h1 s (ix2 i 0) = s (ix1 i) :=
  broadcastInDim_apply _ h1 s (ix2 i 0) (ix1 i) (fun ax => by
    match ax with
    | ⟨0, _⟩ => exact val_eq_ite i)

/-- A vector `s` of length `e` written as a column and then repeated across `w` columns (a scale applied to every
    entry of a row): at row `i` and column `q` it reads `s` at `i`. -/
theorem colScale_apply {e w : Nat} (s : (⟨1, ![e]⟩ : Shape).Idx → α)
    (h1 : (⟨1, ![e]⟩ : Shape).BroadcastsInDim ⟨2, ![e, 1]⟩ (![0] : Fin 1 → Fin 2))
    (h2 : (⟨2, ![e, 1]⟩ : Shape).BroadcastsInDim ⟨2, ![e, w]⟩ (![0, 1] : Fin 2 → Fin 2)) (i : Fin e) (q : Fin w) :
    broadcastInDim ⟨2, ![e, w]⟩ ![0, 1] h2 (broadcastInDim ⟨2, ![e, 1]⟩ ![0] h1 s) (ix2 i q) = s (ix1 i) := by
  refine (broadcastInDim_apply _ h2 _ (ix2 i q) (ix2 i 0) (fun ax => ?_)).trans (colOf_apply s h1 i)
  match ax with
  | ⟨0, _⟩ => exact val_eq_ite i
  | ⟨1, _⟩ => exact (if_pos rfl).symm

/-- A scalar `z` repeated over a shape `t` reads `z` at every index of `t`. -/
theorem splat_apply (t : Shape) (h : (⟨0, ![]⟩ : Shape).BroadcastsInDim t (![] : Fin 0 → Fin t.rank))
    (z : (⟨0, ![]⟩ : Shape).Idx → α) (j : t.Idx) :
    broadcastInDim t ![] h z j = z ix0 :=
  broadcastInDim_apply _ h z j ix0 (fun ax => ax.elim0)

end Idealize.ShloMosaic.ColumnLayout
-- ==== Proof.SliceLaw.lean ====
/-
  One graph-convolution layer acts column by column, so a layer on joined weights splits into its column halves.

  Entry `(r, q)` of a layer's aggregation is the sum, over the entries `i` whose target is `r`, of `h (src i, q) · nrm i`,
  plus `b q`: it reads column `q` of the layer's input `h` and position `q` of the bias `b`, and nothing else of
  either.  When `h` is a product `H · [Wa | Wb]` against two weight matrices laid side by side, column `q` of the product
  is column `q` of `H · Wa` in the left half and of `H · Wb` in the right half; the same holds for the joined biases.
  Hence the left block of columns of the layer on the joined weights is the layer on `(Wa, ba)`, and the right block is
  the layer on `(Wb, bb)`.  Only reindexing is used.
-/
import proofs.«100902_j1211180778233_1_alg».proof.Proof.GcnSpec
import proofs.«100902_j1211180778233_1_alg».proof.Proof.LibRowGatherScatter
import proofs.«100902_j1211180778233_1_alg».proof.Proof.LibColumnLayout
import proofs.«100902_j1211180778233_1_alg».proof.Proof.LibProdEntries

noncomputable section

namespace Cert.Gcn

open Idealize.ShloMosaic Idealize.ShloMosaic.ValueIdx Idealize.ShloMosaic.MatmulPlain Idealize.ShloMosaic.RowIndexing
  Idealize.ShloMosaic.ColumnLayout
open scoped BigOperators

/-- ONE LAYER READ AT `(r, q)`: zero, plus the sum over the entries `i` whose target is `r` of the input at row `src i`
    (wrapped, read signed and clamped) and column `q` scaled by `nrm i`, plus the bias at `q`. -/
theorem convLayer_apply {W : Nat} (hf : IndexFacts) (hl : LayerFacts W) (src dst : IVec S1700000 32)
    (nrm : FVec Ideal S1700000 .f32) (h : FVec Ideal ⟨2, ![100000, W]⟩ .f32) (b : FVec Ideal ⟨1, ![W]⟩ .f32)
    (r : Fin 100000) (q : Fin W) :
    convLayer (F := Ideal) hf hl src dst nrm h b (ix2 r q) =
      (Ideal.ofBits .f32 0x00000000#32 + ∑ i : Fin 1700000, if (dst (ix1 i)).toInt = (r.val : Int) then
        h (ix2 (clampRow (by decide) (broadcastInDim S1700000x1 ![0] hf.bc (wrap hf src)) i) q) * nrm (ix1 i) else 0)
      + b (ix1 q) := by
  unfold convLayer
  rw [addf_apply, rowScatterAdd_apply, rowBias_apply, splat_apply]
  refine congrArg (· + b (ix1 q)) (congrArg (Ideal.ofBits .f32 0x00000000#32 + ·) (Finset.sum_congr rfl fun i _ => ?_))
  rw [colOf_apply, mulf_apply, rowGather_apply (by decide), colScale_apply]

/-- A LAYER DEPENDS ON ONE COLUMN: if column `c` of the input `h` is column `c'` of `h'` and the bias `b` at `c` is `b'` at
    `c'`, then column `c` of the layer on `(h, b)` is column `c'` of the layer on `(h', b')` (the two layers may have
    different numbers of columns). -/
theorem convLayer_col_congr {W W' : Nat} (hf : IndexFacts) (hl : LayerFacts W) (hl' : LayerFacts W')
    (src dst : IVec S1700000 32) (nrm : FVec Ideal S1700000 .f32)
    (h : FVec Ideal ⟨2, ![100000, W]⟩ .f32) (h' : FVec Ideal ⟨2, ![100000, W']⟩ .f32)
    (b : FVec Ideal ⟨1, ![W]⟩ .f32) (b' : FVec Ideal ⟨1, ![W']⟩ .f32) (r : Fin 100000) (c : Fin W) (c' : Fin W')
    (hh : ∀ p : Fin 100000, h (ix2 p c) = h' (ix2 p c')) (hb : b (ix1 c) = b' (ix1 c')) :
    convLayer (F := Ideal) hf hl src dst nrm h b (ix2 r c) = convLayer (F := Ideal) hf hl' src dst nrm h' b' (ix2 r c') := by
  rw [convLayer_apply, convLayer_apply, hb]
  refine congrArg (· + b' (ix1 c')) (congrArg (Ideal.ofBits .f32 0x00000000#32 + ·) (Finset.sum_congr rfl fun i _ => ?_))
  rw [hh]

section Halves
variable (hf : IndexFacts) (hl128 : LayerFacts 128) (hl64 : LayerFacts 64)
  (hcW : Shape.Concatenates [⟨2, ![128, 64]⟩, ⟨2, ![128, 64]⟩] ⟨2, ![128, 128]⟩ 1)
  (hcb : Shape.Concatenates [⟨1, ![64]⟩, ⟨1, ![64]⟩] ⟨1, ![128]⟩ 0)
  (src dst : IVec S1700000 32) (nrm : FVec Ideal S1700000 .f32) (H : FVec Ideal ⟨2, ![100000, 128]⟩ .f32)
  (Wa Wb : FVec Ideal ⟨2, ![128, 64]⟩ .f32) (ba bb : FVec Ideal ⟨1, ![64]⟩ .f32)

/-- A column `c` of the layer on the joined weights that is column `q` of the left half is column `q` of the layer on
    `(Wa, ba)`. -/
theorem convLayer_joined_left (r : Fin 100000) (q : Fin 64) (c : Fin 128) (hc : c.val = q.val) :
    convLayer (F := Ideal) hf hl128 src dst nrm
        (prod H (concatenate ⟨2, ![128, 128]⟩ 1 [⟨⟨2, ![128, 64]⟩, Wa⟩, ⟨⟨2, ![128, 64]⟩, Wb⟩] hcW))
        (concatenate ⟨1, ![128]⟩ 0 [⟨⟨1, ![64]⟩, ba⟩, ⟨⟨1, ![64]⟩, bb⟩] hcb) (ix2 r c) =
      convLayer (F := Ideal) hf hl64 src dst nrm (prod H Wa) ba (ix2 r q) := by
  have hlt : c.val < 64 := by have := q.isLt; omega
  have hq : (⟨c.val, hlt⟩ : Fin 64) = q := Fin.ext hc
  refine convLayer_col_congr hf hl128 hl64 src dst nrm _ _ _ _ r c q (fun p => ?_) ?_
  · refine prod_entry_congr H _ H Wa (ix2 p c) (ix2 p q) (fun k => rfl) (fun k => ?_)
    show concatenate ⟨2, ![128, 128]⟩ 1 [⟨⟨2, ![128, 64]⟩, Wa⟩, ⟨⟨2, ![128, 64]⟩, Wb⟩] hcW (ix2 k c) = Wa (ix2 k q)
    rw [concatCols_apply_of_lt Wa Wb hcW k c hlt, hq]
  · rw [concatVec_apply_of_lt ba bb hcb c hlt, hq]

/-- A column `c` of the layer on the joined weights that is column `q` of the right half is column `q` of the layer on
    `(Wb, bb)`. -/
theorem convLayer_joined_right (r : Fin 100000) (q : Fin 64) (c : Fin 128) (hc : c.val = 64 + q.val) :
    convLayer (F := Ideal) hf hl128 src dst nrm
        (prod H (concatenate ⟨2, ![128, 128]⟩ 1 [⟨⟨2, ![128, 64]⟩, Wa⟩, ⟨⟨2, ![128, 64]⟩, Wb⟩] hcW))
        (concatenate ⟨1, ![128]⟩ 0 [⟨⟨1, ![64]⟩, ba⟩, ⟨⟨1, ![64]⟩, bb⟩] hcb) (ix2 r c) =
      convLayer (F := Ideal) hf hl64 src dst nrm (prod H Wb) bb (ix2 r q) := by
  have hle : 64 ≤ c.val := by omega
  have hlt : c.val - 64 < 64 := by have := q.isLt; omega
  have hq : (⟨c.val - 64, hlt⟩ : Fin 64) = q := Fin.ext (by show c.val - 64 = q.val; omega)
  refine convLayer_col_congr hf hl128 hl64 src dst nrm _ _ _ _ r c q (fun p => ?_) ?_
  · refine prod_entry_congr H _ H Wb (ix2 p c) (ix2 p q) (fun k => rfl) (fun k => ?_)
    show concatenate ⟨2, ![128, 128]⟩ 1 [⟨⟨2, ![128, 64]⟩, Wa⟩, ⟨⟨2, ![128, 64]⟩, Wb⟩] hcW (ix2 k c) = Wb (ix2 k q)
    rw [concatCols_apply_of_le Wa Wb hcW k c hle hlt, hq]
  · rw [concatVec_apply_of_le ba bb hcb c hle hlt, hq]

end Halves

/-- THE LEFT HALF: the first 64 columns of the layer on the joined weights `[Wa | Wb]`, `[ba | bb]` are the layer on
    `(Wa, ba)`. -/
theorem head_left (hf : IndexFacts) (hl128 : LayerFacts 128) (hl64 : LayerFacts 64)
    (hcW : Shape.Concatenates [⟨2, ![128, 64]⟩, ⟨2, ![128, 64]⟩] ⟨2, ![128, 128]⟩ 1)
    (hcb : Shape.Concatenates [⟨1, ![64]⟩, ⟨1, ![64]⟩] ⟨1, ![128]⟩ 0)
    (hs : (⟨2, ![100000, 128]⟩ : Shape).Slices ![0, 0] ⟨2, ![100000, 64]⟩)
    (src dst : IVec S1700000 32) (nrm : FVec Ideal S1700000 .f32) (H : FVec Ideal ⟨2, ![100000, 128]⟩ .f32)
    (Wa Wb : FVec Ideal ⟨2, ![128, 64]⟩ .f32) (ba bb : FVec Ideal ⟨1, ![64]⟩ .f32) :
    extractStridedSlice ⟨2, ![100000, 64]⟩ ![0, 0] (convLayer (F := Ideal) hf hl128 src dst nrm
        (prod H (concatenate ⟨2, ![128, 128]⟩ 1 [⟨⟨2, ![128, 64]⟩, Wa⟩, ⟨⟨2, ![128, 64]⟩, Wb⟩] hcW))
        (concatenate ⟨1, ![128]⟩ 0 [⟨⟨1, ![64]⟩, ba⟩, ⟨⟨1, ![64]⟩, bb⟩] hcb)) hs =
      convLayer (F := Ideal) hf hl64 src dst nrm (prod H Wa) ba := by
  funext j
  obtain ⟨r, q, rfl⟩ : ∃ (r : Fin 100000) (q : Fin 64), j = ix2 r q := ⟨j 0, j 1, eq_ix2 j⟩
  have hq : 0 + q.val < 128 := by have := q.isLt; omega
  rw [colSlice_apply 0 _ hs r q hq]
  exact convLayer_joined_left hf hl128 hl64 hcW hcb src dst nrm H Wa Wb ba bb r q ⟨0 + q.val, hq⟩ (Nat.zero_add _)

/-- THE RIGHT HALF: the last 64 columns of the layer on the joined weights `[Wa | Wb]`, `[ba | bb]` are the layer on
    `(Wb, bb)`. -/
theorem head_right (hf : IndexFacts) (hl128 : LayerFacts 128) (hl64 : LayerFacts 64)
    (hcW : Shape.Concatenates [⟨2, ![128, 64]⟩, ⟨2, ![128, 64]⟩] ⟨2, ![128, 128]⟩ 1)
    (hcb : Shape.Concatenates [⟨1, ![64]⟩, ⟨1, ![64]⟩] ⟨1, ![128]⟩ 0)
    (hs' : (⟨2, ![100000, 128]⟩ : Shape).Slices ![0, 64] ⟨2, ![100000, 64]⟩)
    (src dst : IVec S1700000 32) (nrm : FVec Ideal S1700000 .f32) (H : FVec Ideal ⟨2, ![100000, 128]⟩ .f32)
    (Wa Wb : FVec Ideal ⟨2, ![128, 64]⟩ .f32) (ba bb : FVec Ideal ⟨1, ![64]⟩ .f32) :
    extractStridedSlice ⟨2, ![100000, 64]⟩ ![0, 64] (convLayer (F := Ideal) hf hl128 src dst nrm
        (prod H (concatenate ⟨2, ![128, 128]⟩ 1 [⟨⟨2, ![128, 64]⟩, Wa⟩, ⟨⟨2, ![128, 64]⟩, Wb⟩] hcW))
        (concatenate ⟨1, ![128]⟩ 0 [⟨⟨1, ![64]⟩, ba⟩, ⟨⟨1, ![64]⟩, bb⟩] hcb)) hs' =
      convLayer (F := Ideal) hf hl64 src dst nrm (prod H Wb) bb := by
  funext j
  obtain ⟨r, q, rfl⟩ : ∃ (r : Fin 100000) (q : Fin 64), j = ix2 r q := ⟨j 0, j 1, eq_ix2 j⟩
  have hq : 64 + q.val < 128 := by have := q.isLt; omega
  rw [colSlice_apply 64 _ hs' r q hq]
  exact convLayer_joined_right hf hl128 hl64 hcW hcb src dst nrm H Wa Wb ba bb r q ⟨64 + q.val, hq⟩ rfl

end Cert.Gcn

end
-- ==== Proof.lean ====
/-
  The certificate of a stacked graph-convolution encoder: three tiled matrix-product kernels among host stretches,
  against the plain jnp reference, equal at Ideal.

  Both programs build the same index vectors and normalisation from the edge array and apply the same aggregation
  (gather the source rows, scale, add up by target, add the bias) and `relu` after the first two products.  The kernel
  program's products are tiled over blocks of 5000 rows with operands rounded to a narrower format on the way into the
  matrix unit; at Ideal a change of format is the identity and a product of a block of rows is that block of the
  product, so each region leaves the plain product of its two input arrays — as does the reference's `dot_general`.
  The one place the two programs differ in arrangement is the output layer: the kernel program multiplies by
  `[W_mu | W_logstd]` once, aggregates on 128 columns with the bias `[b_mu | b_logstd]`, and cuts the result into its two
  column halves, where the reference runs two output layers on 64 columns.  Every stage of the aggregation keeps the
  column — entry `(r, q)` of a product depends on column `q` of the right operand only; the row gather, the scaling, the
  adding-up of rows and the bias add act column by column — so the left half is the output layer with `W_mu`, `b_mu` and
  the right half the one with `W_logstd`, `b_logstd`.  This is reindexing only; no sum is regrouped and nothing is
  cancelled, so the finiteness of the inputs is not used.

  The three frames: the two kernel programs' by their whole generated frame; the reference's is its run with the results
  dropped.  The idealization rewrote no operation, so `preserves` asks nothing.
-/
import proofs.«100902_j1211180778233_1_alg».proof.Defs
import proofs.«100902_j1211180778233_1_alg».proof.Proof.Gen.Kernel
import proofs.«100902_j1211180778233_1_alg».proof.Proof.Gen.Kernel.Frame
import proofs.«100902_j1211180778233_1_alg».proof.Proof.Gen.KernelIdeal
import proofs.«100902_j1211180778233_1_alg».proof.Proof.Gen.KernelIdeal.Frame
import proofs.«100902_j1211180778233_1_alg».proof.Proof.Gen.ReferenceIdeal
import proofs.«100902_j1211180778233_1_alg».proof.Proof.Gen.Pre_finite_inputs
import proofs.«100902_j1211180778233_1_alg».proof.Proof.KernelResult
import proofs.«100902_j1211180778233_1_alg».proof.Proof.RefProd
import proofs.«100902_j1211180778233_1_alg».proof.Proof.SliceLaw
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.MatmulPlain Cert.Gcn

/-- The output layer on 64 columns with the weights in buffers `W`, `b`, over the hidden layers, of the kernel program's
    argument arrays: what result 0 (with `W_mu`, `b_mu`) and result 1 (with `W_logstd`, `b_logstd`) are on both sides. -/
def head (m : (ℓ : Loc Cert.KernelIdeal.nD Cert.KernelIdeal.τ Cert.KernelIdeal.sig) → Buf (Elt Ideal) ℓ) (c : Dev Cert.KernelIdeal.nD)
    (W : FVec Ideal ⟨2, ![128, 64]⟩ .f32) (b : FVec Ideal ⟨1, ![64]⟩ .f32) : FVec Ideal ⟨2, ![100000, 64]⟩ .f32 :=
  convLayer Cert.KernelIdeal.KValue.hf Cert.ReferenceIdeal.RefValue.hl64
    (srcOf Cert.KernelIdeal.KValue.hf (m ((c.tc : Thread Cert.KernelIdeal.nD Cert.KernelIdeal.τ).loc Cert.KernelIdeal.main_arg1))) (dstOf Cert.KernelIdeal.KValue.hf (m ((c.tc : Thread Cert.KernelIdeal.nD Cert.KernelIdeal.τ).loc Cert.KernelIdeal.main_arg1))) (nrmOf Cert.KernelIdeal.KValue.hf (m ((c.tc : Thread Cert.KernelIdeal.nD Cert.KernelIdeal.τ).loc Cert.KernelIdeal.main_arg1)))
    (prod (M := 100000) (K := 128) (N := 64) (φ₁ := .f32) (φ₂ := .f32)
      (Cert.KernelIdeal.KValue.hiddenK (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) W) b

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing. -/
theorem preserves : Cert.preserves_Kernel_KernelIdeal := trivial

/-- The kernel program's results are the two column halves of one output layer on 128 columns, hence the two output
    layers on 64 columns (`head_left`, `head_right`); the reference's results are those two layers with every
    `dot_general` the plain product, of arguments that agree. -/
theorem algebraic : Cert.algebraic_KernelIdeal_ReferenceIdeal := by
  intro m ρ m' ρ' _ hagree
  refine ⟨fun c => head m c (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => head m c (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.RunValue.run_results (F := Ideal) m ρ)
    obtain ⟨h0, h1, hargs⟩ := h c
    refine ⟨h0.trans ?_, h1.trans ?_, hargs⟩
    · rw [Cert.KernelIdeal.KValue.out0_eq]
      exact head_left _ _ _ _ _ _ _ _ _ _ _ _ _ _
    · rw [Cert.KernelIdeal.KValue.out1_eq]
      exact head_right _ _ _ _ _ _ _ _ _ _ _ _ _ _
  · refine (θ_run Cert.ReferenceIdeal.defs _ _).mono (fun r h c => ?_) (Cert.ReferenceIdeal.ValueP.run (F := Ideal) m' ρ')
    obtain ⟨h0, h1, hargs⟩ := h c
    obtain ⟨e0, e1, e2, e3, e4, e5, e6, e7, e8, e9⟩ := hagree c
    refine ⟨h0.trans ?_, h1.trans ?_, hargs⟩
    · rw [Cert.ReferenceIdeal.RefValue.res0_eq, e0, e1, e2, e3, e4, e5, e6, e7, Cert.ReferenceIdeal.RefValue.headR_eq,
        Cert.ReferenceIdeal.RefValue.hiddenR_eq]
      rfl
    · rw [Cert.ReferenceIdeal.RefValue.res1_eq, e0, e1, e2, e3, e4, e5, e8, e9, Cert.ReferenceIdeal.RefValue.headR_eq,
        Cert.ReferenceIdeal.RefValue.hiddenR_eq]
      rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
